-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S8x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S16384x1024 : Shape := ⟨2, ![16384, 1024]⟩
abbrev S3072x1024 : Shape := ⟨2, ![3072, 1024]⟩
abbrev S1024x3072 : Shape := ⟨2, ![1024, 3072]⟩
abbrev S3072 : Shape := ⟨1, ![3072]⟩
abbrev S512x1024 : Shape := ⟨2, ![512, 1024]⟩
abbrev S512x3072 : Shape := ⟨2, ![512, 3072]⟩
abbrev S1x3072 : Shape := ⟨2, ![1, 3072]⟩
abbrev S1x512x1024 : Shape := ⟨3, ![1, 512, 1024]⟩
abbrev S1x2048x1024 : Shape := ⟨3, ![1, 2048, 1024]⟩
abbrev S2048x1024 : Shape := ⟨2, ![2048, 1024]⟩
abbrev S512x2048 : Shape := ⟨2, ![512, 2048]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S16384x1024, .f32⟩
  | .hbm, ⟨8, _⟩ => ⟨S3072x1024, .f32⟩
  | .hbm, ⟨9, _⟩ => ⟨S1024x3072, .f32⟩
  | .hbm, ⟨10, _⟩ => ⟨S1024x3072, .bf16⟩
  | .hbm, ⟨11, _⟩ => ⟨S3072, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S8x2048x1024, .bf16⟩
  | .hbm, ⟨16, _⟩ => ⟨S8x2048x1024, .bf16⟩
  | .hbm, ⟨17, _⟩ => ⟨S8x2048x1024, .bf16⟩
  | .hbm, ⟨18, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x512x1024, .f32⟩
  | .local _ .vmem, ⟨17, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S8x2048x1024_S16384x1024 : S8x2048x1024.ShapeCasts S16384x1024
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S3072 : S3072.ShapeCasts S3072
  shapeCasts_S3072_S1x3072 : S3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S512x2048_S512 : S512x2048.Reduces [1] S512
  shapeCasts_S512_S512x1 : S512.ShapeCasts S512x1
  broadcasts_S512x1_S512x2048 : S512x1.Broadcasts S512x2048
  broadcasts_S512x1_S512x1024 : S512x1.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S2048x1024_S512x2048_1_1_0_0_n_n_wf : DotDims.WF S512x1024 S2048x1024 S512x2048 [1] [1] [0] [0] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .bf16 = 32 ∨ (Rect.block (s := S16384x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .bf16 = 32 ∨ (Rect.block (s := S8x2048x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S2048x1024_S512x2048_1_1_0_0_n_n : DotDims S512x1024 S2048x1024 S512x2048 where
  lhsContracting := [1]
  rhsContracting := [1]
  lhsNonContracting := [0]
  rhsNonContracting := [0]
  lhsBatch := []
  rhsBatch := []
  wf := dot_S512x1024_S2048x1024_S512x2048_1_1_0_0_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S1x1x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S1x1x1024, .f32⟩
  | .hbm, ⟨17, _⟩ => ⟨S8x2048x1024, .f32⟩
  | .hbm, ⟨18, _⟩ => ⟨S8x2048x1024, .f32⟩
  | .hbm, ⟨19, _⟩ => ⟨S8x2048x2048, .f32⟩
  | .hbm, ⟨20, _⟩ => ⟨S_, .f32⟩
  | .hbm, ⟨21, _⟩ => ⟨S_, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S_, .f32⟩
  | .hbm, ⟨27, _⟩ => ⟨S8x2048, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BDefs.lean ====
/-
  The shared definitions of both pallas_calls' frame and value proofs, at any float instance: a window's block at a grid
  point read off its array as the region finds it, the rectangles the bodies load and store through (each the whole
  staging buffer), what each body leaves in each output window's staging buffer as a function of the input blocks
  (one whole-buffer store per output: the projected, scaled q; k; v for the first call; the attention rows for the
  second), and each pipeline's proof data: the arrays as the region finds them, after the body every input buffer still
  at its block and every output buffer at that function of the input blocks.
-/
import proofs.«147454_j31155692765425_2_alg».proof.Proof.Gen.Kernel.Launch
import proofs.«147454_j31155692765425_2_alg».proof.Proof.Gen.Kernel.Skeleton
import proofs.«147454_j31155692765425_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-! # The first call: the fused q / k / v projection, 32 row blocks of 512 rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 staging buffer (the row block of x, and each of the three outputs). -/
abbrev rx0 : Rect S512x1024 := Rect.unit (s := S512x1024) ![0, 0] S512x1024.size inb_S512x1024_S512x1024_0_0
/-- The whole 1024 x 3072 weight buffer. -/
abbrev rw0 : Rect S1024x3072 := Rect.unit (s := S1024x3072) ![0, 0] S1024x3072.size inb_S1024x3072_S1024x3072_0_0
/-- The whole bias buffer of 3072 entries. -/
abbrev rb0 : Rect S3072 := Rect.unit (s := S3072) ![0] S3072.size inb_S3072_S3072_0

/-- The q output's staging buffer after the body: columns 0..1023 of x·W + b, times 1/32. -/
def out0_3 (x0 : Vec F S512x1024 .f32) (x1 : Vec F S1024x3072 .bf16) (x2 : Vec F S3072 .f32) : Vec F S512x1024 .bf16 :=
  View.canon [⟨rx0, k0_pay2 (View.ld x0 rx0) (View.ld x1 rw0) (View.ld x2 rb0)⟩]
/-- The k output's staging buffer after the body: columns 1024..2047 of x·W + b. -/
def out0_4 (x0 : Vec F S512x1024 .f32) (x1 : Vec F S1024x3072 .bf16) (x2 : Vec F S3072 .f32) : Vec F S512x1024 .bf16 :=
  View.canon [⟨rx0, k0_pay3 (View.ld x0 rx0) (View.ld x1 rw0) (View.ld x2 rb0)⟩]
/-- The v output's staging buffer after the body: columns 2048..3071 of x·W + b. -/
def out0_5 (x0 : Vec F S512x1024 .f32) (x1 : Vec F S1024x3072 .bf16) (x2 : Vec F S3072 .f32) : Vec F S512x1024 .bf16 :=
  View.canon [⟨rx0, k0_pay4 (View.ld x0 rx0) (View.ld x1 rw0) (View.ld x2 rb0)⟩]

/-- The one whole-buffer store covers the buffer. -/
theorem cover0 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

/-- The first pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! # The second call: attention, 8 batches by 4 blocks of 512 query rows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 x 512 x 1024 staging buffer (the query block, and the output block). -/
abbrev rq1 : Rect S1x512x1024 := Rect.unit (s := S1x512x1024) ![0, 0, 0] S1x512x1024.size inb_S1x512x1024_S1x512x1024_0_0_0
/-- The whole 1 x 2048 x 1024 staging buffer (all keys, all values of one batch). -/
abbrev rk1 : Rect S1x2048x1024 := Rect.unit (s := S1x2048x1024) ![0, 0, 0] S1x2048x1024.size inb_S1x2048x1024_S1x2048x1024_0_0_0

/-- The output's staging buffer after the body: the softmax-weighted value rows of the 512 queries. -/
def out1_3 (x0 : Vec F S1x512x1024 .bf16) (x1 : Vec F S1x2048x1024 .bf16) (x2 : Vec F S1x2048x1024 .bf16) : Vec F S1x512x1024 .f32 :=
  View.canon [⟨rq1, k1_pay1 (View.ld x0 rq1) (View.ld x1 rk1) (View.ld x2 rk1)⟩]

/-- The one whole-buffer store covers the buffer. -/
theorem cover1 (p0 : Vec F S1x512x1024 .f32) (y : S1x512x1024.Idx) :
    ∃ pc ∈ ([⟨rq1, p0⟩] : List (View.Piece (Elt F) S1x512x1024 .f32)), y ∈ pc.1.set :=
  View.cover_of_tiled [⟨rq1, p0⟩] S1x512x1024.size (by rfl) y

/-- The second pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.Kernel.Hand

end
-- ==== Proof.BBody0.lean ====
/-
  The body of the first call at a grid point: with every input window's staging buffer holding its block, the body runs to
  the end leaving the inputs in place and each output buffer at its function of the input blocks.
-/
import proofs.«147454_j31155692765425_2_alg».proof.Proof.BDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof data
    whose array is the region-entry contents and whose body leaves the block in place: unfetched, the index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the inputs' at read contents and the outputs' at anything, runs to the
    continuation holding the inputs' as they were and each output's at its function of the inputs': the three loads,
    then per output one (unused) load of the buffer and one store over the whole of it. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S3072 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BBody1.lean ====
/-
  The body of the second call at a grid point: with every input window's staging buffer holding its block, the body runs to
  the end leaving the inputs in place and each output buffer at its function of the input blocks.
-/
import proofs.«147454_j31155692765425_2_alg».proof.Proof.BDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The input windows' staging buffers before the body -/

/-- The query window's current staging buffer holds its block at every point, for any proof data whose array is the
    region-entry contents and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's current staging buffer holds its block at every point, fetched there or not (between fetches the
    block index does not move and the body leaves the buffer in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! # The body's triple -/

set_option maxHeartbeats 1000000 in
/-- The body on whole staging memrefs, at any grid coordinates: the three inputs' memrefs at read contents `x0 x1 x2` and the
    output's at anything, it runs to the continuation holding the inputs' as they were and the output's at `out1_3` of the
    inputs' (the one whole-buffer store overwrites whatever the buffer held, so what the body loads from it first is not read). -/
theorem sound_kernel1 (c : Dev nD) (E : Set ℕ) (i : grid1.Coords)
    (arg0 : Memref sig .tc .vmem S1x512x1024 .bf16) (harg0 : arg0.IsWhole) (arg1 : Memref sig .tc .vmem S1x2048x1024 .bf16) (harg1 : arg1.IsWhole)
    (arg2 : Memref sig .tc .vmem S1x2048x1024 .bf16) (harg2 : arg2.IsWhole) (arg3 : Memref sig .tc .vmem S1x512x1024 .f32) (harg3 : arg3.IsWhole)
    (x0 : Vec F S1x512x1024 .bf16) (x1 : Vec F S1x2048x1024 .bf16) (x2 : Vec F S1x2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! # The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BRun.lean ====
/-
  The run of @main over its two regions, at any float instance: the buffers' contents at each boundary between the host
  stretches and the two pallas_calls as a fold from the launch memory (a host stretch's contents after its operations; a
  region's arrays at what its write-backs leave, every other buffer as entered), each region as a segment over the thread
  state "every unscoped buffer at the boundary's contents, the generator register at some state, nothing owed", and the
  launch over the four segments: every weakly fair execution terminates, nothing faulting, with every unscoped buffer at
  the last boundary's contents; in particular every argument array ends as launched.
-/
import proofs.«147454_j31155692765425_2_alg».proof.Proof.BBody0
import proofs.«147454_j31155692765425_2_alg».proof.Proof.BBody1
import proofs.«147454_j31155692765425_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each segment boundary: a fold through @main -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 m ρ c b
/-- At the second region's exit each of its arrays holds what the pipeline leaves and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and no region has one among its arrays, so the fold at
    an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    transfers, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The regions as segments -/

-- applying a library lemma stated over the pinned configuration unifies with the printed configuration only when
-- unification may unfold plain definitions in a metavariable's type
set_option backward.isDefEq.respectTransparency.types false in
/-- The first region over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed configuration only when
-- unification may unfold plain definitions in a metavariable's type
set_option backward.isDefEq.respectTransparency.types false in
/-- The second region over the thread state: entered from every unscoped buffer at `W3`, left at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's four segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and in every final state every unscoped buffer of every core holds the last
    boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every weakly fair execution of @main terminates, nothing faulting, and every final state has the seven
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

end Cert.Kernel.Hand

end
-- ==== Proof.KDefs.lean ====
/-
  The shared definitions of both pallas_calls' frame and value proofs, at any float instance: a window's block at a grid
  point read off its array as the region finds it, the rectangles the bodies load and store through (each the whole
  staging buffer), what each body leaves in each output window's staging buffer as a function of the input blocks
  (one whole-buffer store per output: the projected, scaled q; k; v for the first call; the attention rows for the
  second), and each pipeline's proof data: the arrays as the region finds them, after the body every input buffer still
  at its block and every output buffer at that function of the input blocks.
-/
import proofs.«147454_j31155692765425_2_alg».proof.Proof.Gen.KernelIdeal.Launch
import proofs.«147454_j31155692765425_2_alg».proof.Proof.Gen.KernelIdeal.Skeleton
import proofs.«147454_j31155692765425_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-! # The first call: the fused q / k / v projection, 32 row blocks of 512 rows -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512 x 1024 staging buffer (the row block of x, and each of the three outputs). -/
abbrev rx0 : Rect S512x1024 := Rect.unit (s := S512x1024) ![0, 0] S512x1024.size inb_S512x1024_S512x1024_0_0
/-- The whole 1024 x 3072 weight buffer. -/
abbrev rw0 : Rect S1024x3072 := Rect.unit (s := S1024x3072) ![0, 0] S1024x3072.size inb_S1024x3072_S1024x3072_0_0
/-- The whole bias buffer of 3072 entries. -/
abbrev rb0 : Rect S3072 := Rect.unit (s := S3072) ![0] S3072.size inb_S3072_S3072_0

/-- The q output's staging buffer after the body: columns 0..1023 of x·W + b, times 1/32. -/
def out0_3 (x0 : Vec F S512x1024 .f32) (x1 : Vec F S1024x3072 .bf16) (x2 : Vec F S3072 .f32) : Vec F S512x1024 .bf16 :=
  View.canon [⟨rx0, k0_pay2 (View.ld x0 rx0) (View.ld x1 rw0) (View.ld x2 rb0)⟩]
/-- The k output's staging buffer after the body: columns 1024..2047 of x·W + b. -/
def out0_4 (x0 : Vec F S512x1024 .f32) (x1 : Vec F S1024x3072 .bf16) (x2 : Vec F S3072 .f32) : Vec F S512x1024 .bf16 :=
  View.canon [⟨rx0, k0_pay3 (View.ld x0 rx0) (View.ld x1 rw0) (View.ld x2 rb0)⟩]
/-- The v output's staging buffer after the body: columns 2048..3071 of x·W + b. -/
def out0_5 (x0 : Vec F S512x1024 .f32) (x1 : Vec F S1024x3072 .bf16) (x2 : Vec F S3072 .f32) : Vec F S512x1024 .bf16 :=
  View.canon [⟨rx0, k0_pay4 (View.ld x0 rx0) (View.ld x1 rw0) (View.ld x2 rb0)⟩]

/-- The one whole-buffer store covers the buffer. -/
theorem cover0 (p0 : Vec F S512x1024 .bf16) (y : S512x1024.Idx) :
    ∃ pc ∈ ([⟨rx0, p0⟩] : List (View.Piece (Elt F) S512x1024 .bf16)), y ∈ pc.1.set :=
  View.cover_of_tiled [⟨rx0, p0⟩] S512x1024.size (by rfl) y

/-- The first pipeline's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! # The second call: attention, 8 batches by 4 blocks of 512 query rows -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole 1 x 512 x 1024 staging buffer (the query block, and the output block). -/
abbrev rq1 : Rect S1x512x1024 := Rect.unit (s := S1x512x1024) ![0, 0, 0] S1x512x1024.size inb_S1x512x1024_S1x512x1024_0_0_0
/-- The whole 1 x 2048 x 1024 staging buffer (all keys, all values of one batch). -/
abbrev rk1 : Rect S1x2048x1024 := Rect.unit (s := S1x2048x1024) ![0, 0, 0] S1x2048x1024.size inb_S1x2048x1024_S1x2048x1024_0_0_0

/-- The output's staging buffer after the body: the softmax-weighted value rows of the 512 queries. -/
def out1_3 (x0 : Vec F S1x512x1024 .bf16) (x1 : Vec F S1x2048x1024 .bf16) (x2 : Vec F S1x2048x1024 .bf16) : Vec F S1x512x1024 .f32 :=
  View.canon [⟨rq1, k1_pay1 (View.ld x0 rq1) (View.ld x1 rk1) (View.ld x2 rk1)⟩]

/-- The one whole-buffer store covers the buffer. -/
theorem cover1 (p0 : Vec F S1x512x1024 .f32) (y : S1x512x1024.Idx) :
    ∃ pc ∈ ([⟨rq1, p0⟩] : List (View.Piece (Elt F) S1x512x1024 .f32)), y ∈ pc.1.set :=
  View.cover_of_tiled [⟨rq1, p0⟩] S1x512x1024.size (by rfl) y

/-- The second pipeline's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

end Cert.KernelIdeal.Hand

end
-- ==== Proof.KBody0.lean ====
/-
  The body of the first call at a grid point: with every input window's staging buffer holding its block, the body runs to
  the end leaving the inputs in place and each output buffer at its function of the input blocks.
-/
import proofs.«147454_j31155692765425_2_alg».proof.Proof.KDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof data
    whose array is the region-entry contents and whose body leaves the block in place: unfetched, the index has not
    moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the index has not
    moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the index has not
    moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body's triple -/

set_option maxHeartbeats 1000000 in
/-- The kernel body on whole staging memrefs, the inputs' at read contents and the outputs' at anything, runs to the
    continuation holding the inputs' as they were and each output's at its function of the inputs': the three loads,
    then per output one (unused) load of the buffer and one store over the whole of it. -/
theorem sound_kernel0 (c : Dev nD) (E : Set ℕ) (i : grid0.Coords)
    (arg1 : Memref sig .tc .vmem S512x1024 .f32) (harg1 : arg1.IsWhole)
    (arg2 : Memref sig .tc .vmem S1024x3072 .bf16) (harg2 : arg2.IsWhole)
    (arg3 : Memref sig .tc .vmem S3072 .f32) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S512x1024 .bf16) (harg6 : arg6.IsWhole)
    (x0 : Vec F S512x1024 .f32) (x1 : Vec F S1024x3072 .bf16) (x2 : Vec F S3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KBody1.lean ====
/-
  The body of the second call at a grid point: with every input window's staging buffer holding its block, the body runs to
  the end leaving the inputs in place and each output buffer at its function of the input blocks.
-/
import proofs.«147454_j31155692765425_2_alg».proof.Proof.KDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The input windows' staging buffers before the body -/

/-- The query window's current staging buffer holds its block at every point, for any proof data whose array is the
    region-entry contents and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's current staging buffer holds its block at every point, fetched there or not (between fetches the
    block index does not move and the body leaves the buffer in place). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! # The body's triple -/

set_option maxHeartbeats 1000000 in
/-- The body on whole staging memrefs, at any grid coordinates: the three inputs' memrefs at read contents `x0 x1 x2` and the
    output's at anything, it runs to the continuation holding the inputs' as they were and the output's at `out1_3` of the
    inputs' (the one whole-buffer store overwrites whatever the buffer held, so what the body loads from it first is not read). -/
theorem sound_kernel1 (c : Dev nD) (E : Set ℕ) (i : grid1.Coords)
    (arg0 : Memref sig .tc .vmem S1x512x1024 .bf16) (harg0 : arg0.IsWhole) (arg1 : Memref sig .tc .vmem S1x2048x1024 .bf16) (harg1 : arg1.IsWhole)
    (arg2 : Memref sig .tc .vmem S1x2048x1024 .bf16) (harg2 : arg2.IsWhole) (arg3 : Memref sig .tc .vmem S1x512x1024 .f32) (harg3 : arg3.IsWhole)
    (x0 : Vec F S1x512x1024 .bf16) (x1 : Vec F S1x2048x1024 .bf16) (x2 : Vec F S1x2048x1024 .bf16) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! # The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the core's
    owed transfers pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation of the second pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KRun.lean ====
/-
  The run of @main over its two regions, at any float instance: the buffers' contents at each boundary between the host
  stretches and the two pallas_calls as a fold from the launch memory (a host stretch's contents after its operations; a
  region's arrays at what its write-backs leave, every other buffer as entered), each region as a segment over the thread
  state "every unscoped buffer at the boundary's contents, the generator register at some state, nothing owed", and the
  launch over the four segments: every weakly fair execution terminates, nothing faulting, with every unscoped buffer at
  the last boundary's contents; in particular every argument array ends as launched.
-/
import proofs.«147454_j31155692765425_2_alg».proof.Proof.KBody0
import proofs.«147454_j31155692765425_2_alg».proof.Proof.KBody1
import proofs.«147454_j31155692765425_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each segment boundary: a fold through @main -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first region's exit contents). -/
abbrev V2 : (c : Dev nD) → (b : Ref sig .tc) → Buf (Elt F) ((c : Thread nD τ).loc b) := fun c b => W2 m ρ c b
/-- At the first region's exit each of its arrays holds what the pipeline leaves and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
/-- The same read at the TensorCore's references (what the second region's proof data take). -/
abbrev V3 : (c : Dev nD) → (b : Ref sig .tc) → Buf (Elt F) ((c : Thread nD τ).loc b) := fun c b => W3 m ρ c b
/-- At the second region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second region's exit contents). -/
abbrev V4 : (c : Dev nD) → (b : Ref sig .tc) → Buf (Elt F) ((c : Thread nD τ).loc b) := fun c b => W4 m ρ c b
/-- At the second region's exit each of its arrays holds what the pipeline leaves and every other buffer what it held at
    entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched: no host operation writes one and no region has one among its arrays, so the fold at
    an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl

/-! # The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    transfers, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with those
    references at the contents after its operations. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed transfers: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! # The regions as segments -/

-- applying a library lemma stated over the pinned configuration unifies with the printed configuration only when
-- unification may unfold plain definitions in a metavariable's type
set_option backward.isDefEq.respectTransparency.types false in
/-- The first region over the thread state: entered from every unscoped buffer at `W1`, left at `W2`. Its arrays are split
    out of the unscoped buffers and put back at the exit contents; the generator register goes into the region's invariant and
    comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed configuration only when
-- unification may unfold plain definitions in a metavariable's type
set_option backward.isDefEq.respectTransparency.types false in
/-- The second region over the thread state: entered from every unscoped buffer at `W3`, left at `W4`. Its arrays are split
    out of the unscoped buffers and put back at the exit contents; the generator register goes into the region's invariant and
    comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's four segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- The run: at the compiled mesh, from any memory with zero counters, every weakly fair execution of @main on the
    TensorCores terminates, nothing faulting, and in every final state every unscoped buffer of every core holds the last
    boundary's contents. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The frame: every weakly fair execution of @main terminates, nothing faulting, and every final state has the seven
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c)⟩) (run_all m ρ)

end Cert.KernelIdeal.Hand

end
-- ==== Proof.Spec.lean ====
/-
  The two programs' results as functions of the seven argument arrays, over plain finite index types and the extended
  reals. Both project x to q, k, v (x·Wᵀ + b) and take, per batch and query row, the softmax-weighted sum of the value
  rows. They differ in where the scale 1/√1024 sits (the kernel multiplies q by it before the scores' sum, the reference
  divides each score by √1024 after it), in where the normaliser sits (the kernel divides the weighted sum by the sum of
  exponentials, the reference divides each exponential first), and in how the row maximum subtracted before the
  exponential is spelt. The maximum is a parameter here: the softmax does not depend on which real number is subtracted.
-/
import Idealize.ShloMosaic.PureOps.Ideal

noncomputable section

namespace Cert.Spec

open Idealize.ShloMosaic

/-- A batch x sequence x feature array. -/
abbrev A3 : Type := Fin 8 → Fin 2048 → Fin 1024 → EReal

/-- A linear projection: row (n, s) of x against row e of W, plus the bias. -/
def proj (x : A3) (W : Fin 1024 → Fin 1024 → EReal) (b : Fin 1024 → EReal) : A3 :=
  fun n s e => (∑ d : Fin 1024, x n s d * W e d) + b e

/-- The kernel's score of query row s against key row j: q is scaled entry by entry before the sum. -/
def kScore (sc : EReal) (q k : A3) (n : Fin 8) (s j : Fin 2048) : EReal :=
  ∑ d : Fin 1024, (q n s d * sc) * k n j d

/-- The kernel's result: the exponentials' weighted sum of value rows, divided by the exponentials' sum. -/
def kOut (sc : EReal) (q k v : A3) (M : Fin 8 → Fin 2048 → EReal) : A3 := fun n s e =>
  Ideal.div (∑ j : Fin 2048, Ideal.exp (kScore sc q k n s j - M n s) * v n j e)
    (∑ j : Fin 2048, Ideal.exp (kScore sc q k n s j - M n s))

/-- The reference's score: the plain sum divided by dv. -/
def rScore (dv : EReal) (q k : A3) (n : Fin 8) (s j : Fin 2048) : EReal :=
  Ideal.div (∑ d : Fin 1024, q n s d * k n j d) dv

/-- The reference's result: each exponential divided by the exponentials' sum, then the weighted sum of value rows. -/
def rOut (dv : EReal) (q k v : A3) (M : Fin 8 → Fin 2048 → EReal) : A3 := fun n s e =>
  ∑ j : Fin 2048, Ideal.div (Ideal.exp (rScore dv q k n s j - M n s))
    (∑ j' : Fin 2048, Ideal.exp (rScore dv q k n s j' - M n s)) * v n j e

/-- An extended real that is a real number. -/
def IsReal (a : EReal) : Prop := ∃ r : ℝ, a = (r : EReal)

/-- Every entry of a rank-3 array is a real number. -/
def Real3 (x : A3) : Prop := ∀ n s d, IsReal (x n s d)

end Cert.Spec

end
-- ==== Proof.SpecIdx.lean ====
/-
  The argument arrays, given over their literal shapes, as the plainly indexed arrays the specification is written over:
  x by (batch, row, feature), a weight matrix by (output feature, input feature), a bias by output feature.
-/
import proofs.«147454_j31155692765425_2_alg».proof.Proof.Spec
import Idealize.ShloMosaic.Lib.ValueIdx

noncomputable section

namespace Cert.Spec

open Idealize.ShloMosaic Idealize.ShloMosaic.ValueIdx

/-- A [8, 2048, 1024] array by its three coordinates. -/
def arr3 (a : (⟨3, ![8, 2048, 1024]⟩ : Shape).Idx → EReal) : A3 := fun n s d => a (ix3 n s d)
/-- A [1024, 1024] matrix by its two coordinates. -/
def mat (a : (⟨2, ![1024, 1024]⟩ : Shape).Idx → EReal) : Fin 1024 → Fin 1024 → EReal := fun e d => a (ix2 e d)
/-- A [1024] vector by its coordinate. -/
def vec (a : (⟨1, ![1024]⟩ : Shape).Idx → EReal) : Fin 1024 → EReal := fun e => a (ix1 e)

/-- q, k, v of the seven arguments. -/
def qOf (a0 : (⟨3, ![8, 2048, 1024]⟩ : Shape).Idx → EReal) (a1 : (⟨2, ![1024, 1024]⟩ : Shape).Idx → EReal) (a2 : (⟨1, ![1024]⟩ : Shape).Idx → EReal) : A3 :=
  proj (arr3 a0) (mat a1) (vec a2)

end Cert.Spec

end
-- ==== Proof.KVal0.lean ====
/-
  The first call's three output arrays after its region, read at an index. The call walks 32 row blocks of 512 rows of
  x (reshaped to 16384 rows of 1024 features); at each block it forms y = x_blk · W + b against the whole 1024 x 3072
  matrix W (the three transposed weight matrices side by side) and the whole bias row b of 3072 entries, and stores
  columns 0..1023 of y times 1/32, columns 1024..2047 of y, and columns 2048..3071 of y into the same row block of the
  three outputs. Over the extended reals the format changes are the identity and the matrix product is the exact sum,
  so entry (r, e) of each output is the sum over the 1024 features d of x[r, d] · W[d, o + e], plus b[o + e], with
  o = 0, 1024, 2048 (and the factor 1/32 for the first). The blocks tile the arrays: row r lies in block r / 512.
-/
import proofs.«147454_j31155692765425_2_alg».proof.Proof.KDefs
import proofs.«147454_j31155692765425_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand

/-! ## The body's values at an index -/

/-- The product's row index: entry (p, q) of x_blk · W reads x_blk in row p … -/
theorem mm_lhs_0 (i : S512x3072.Idx) (k : dot_S512x1024_S1024x3072_S512x3072_1_0_0_1_n_n.contr.Idx) :
    (dot_S512x1024_S1024x3072_S512x3072_1_0_0_1_n_n.lhsIdx i k 0).val = (i 0).val := by
  unfold DotDims.lhsIdx
  rw [dif_neg (show ¬(0 : Fin S512x1024.rank) ∈ dot_S512x1024_S1024x3072_S512x3072_1_0_0_1_n_n.lhsBatch by decide), dif_pos (show (0 : Fin S512x1024.rank) ∈ dot_S512x1024_S1024x3072_S512x3072_1_0_0_1_n_n.lhsNonContracting by decide)]
  rfl
/-- … at the summed feature, -/
theorem mm_lhs_1 (i : S512x3072.Idx) (k : dot_S512x1024_S1024x3072_S512x3072_1_0_0_1_n_n.contr.Idx) :
    (dot_S512x1024_S1024x3072_S512x3072_1_0_0_1_n_n.lhsIdx i k 1).val = (k ⟨0, by decide⟩).val :=
  dot_S512x1024_S1024x3072_S512x3072_1_0_0_1_n_n.lhsIdx_val_of_single rfl i k
/-- and W at the summed feature … -/
theorem mm_rhs_0 (i : S512x3072.Idx) (k : dot_S512x1024_S1024x3072_S512x3072_1_0_0_1_n_n.contr.Idx) :
    (dot_S512x1024_S1024x3072_S512x3072_1_0_0_1_n_n.rhsIdx i k 0).val = (k ⟨0, by decide⟩).val :=
  dot_S512x1024_S1024x3072_S512x3072_1_0_0_1_n_n.rhsIdx_val_of_single rfl i k
/-- … in column q. -/
theorem mm_rhs_1 (i : S512x3072.Idx) (k : dot_S512x1024_S1024x3072_S512x3072_1_0_0_1_n_n.contr.Idx) :
    (dot_S512x1024_S1024x3072_S512x3072_1_0_0_1_n_n.rhsIdx i k 1).val = (i 1).val := by
  unfold DotDims.rhsIdx
  rw [dif_neg (show ¬(1 : Fin S1024x3072.rank) ∈ dot_S512x1024_S1024x3072_S512x3072_1_0_0_1_n_n.rhsBatch by decide), dif_pos (show (1 : Fin S1024x3072.rank) ∈ dot_S512x1024_S1024x3072_S512x3072_1_0_0_1_n_n.rhsNonContracting by decide)]
  rfl

/-- Entry (p, q) of y = x_blk · W + b: the sum over the features of x_blk[p, d] · W[d, q], plus b[q]. -/
theorem pay1_apply (x0 : Vec Ideal S512x1024 .f32) (x1 : Vec Ideal S1024x3072 .bf16) (x2 : Vec Ideal S3072 .f32)
    (p : Fin 512) (q : Fin 3072) :
    k0_pay1 (F := Ideal) x0 x1 x2 (ix2 p q) = (∑ d : Fin 1024, x0 (ix2 p d) * x1 (ix2 d q)) + x2 (ix1 q) := by
  unfold k0_pay1
  refine (addf_apply _ _ _).trans ?_
  refine congrArg₂ (· + ·) ?_ ?_
  · refine (Ideal.matmul_constant_zero_apply dot_S512x1024_S1024x3072_S512x3072_1_0_0_1_n_n none _ _ (ix2 p q)).trans ?_
    rw [← Equiv.sum_comp (contrEquiv1 dot_S512x1024_S1024x3072_S512x3072_1_0_0_1_n_n 1024 rfl rfl).symm]
    refine Finset.sum_congr rfl fun k _ => ?_
    have hk := contrEquiv1_symm_val dot_S512x1024_S1024x3072_S512x3072_1_0_0_1_n_n 1024 rfl rfl k
    have el : dot_S512x1024_S1024x3072_S512x3072_1_0_0_1_n_n.lhsIdx (ix2 p q) ((contrEquiv1 dot_S512x1024_S1024x3072_S512x3072_1_0_0_1_n_n 1024 rfl rfl).symm k) = ix2 p k := funext fun a => Fin.ext (by
      match a with
      | ⟨0, _⟩ => exact mm_lhs_0 _ _
      | ⟨1, _⟩ => exact (mm_lhs_1 _ _).trans hk)
    have er : dot_S512x1024_S1024x3072_S512x3072_1_0_0_1_n_n.rhsIdx (ix2 p q) ((contrEquiv1 dot_S512x1024_S1024x3072_S512x3072_1_0_0_1_n_n 1024 rfl rfl).symm k) = ix2 k q := funext fun a => Fin.ext (by
      match a with
      | ⟨0, _⟩ => exact (mm_rhs_0 _ _).trans hk
      | ⟨1, _⟩ => exact mm_rhs_1 _ _)
    rw [el, er]
    refine congrArg₂ (· * ·) ?_ ?_
    · exact congrFun (shapeCast_self x0 _) (ix2 p k)
    · exact congrFun (shapeCast_self x1 _) (ix2 k q)
  · refine (broadcastTo_1b_ab_apply _ _ p q).trans ?_
    refine (shapeCast_a_1a_apply _ _ (0 : Fin 1) q).trans ?_
    exact congrFun (shapeCast_self x2 _) (ix1 q)

/-- Entry (p, e) of what the body stores for q: entry (p, e) of y, times 1/32. -/
theorem pay2_apply (x0 : Vec Ideal S512x1024 .f32) (x1 : Vec Ideal S1024x3072 .bf16) (x2 : Vec Ideal S3072 .f32)
    (p : Fin 512) (e : Fin 1024) (e' : Fin 3072) (he : e'.val = 0 + e.val) :
    k0_pay2 (F := Ideal) x0 x1 x2 (ix2 p e)
      = ((∑ d : Fin 1024, x0 (ix2 p d) * x1 (ix2 d e')) + x2 (ix1 e')) * Ideal.ofBits .f32 0x3D000000#32 := by
  unfold k0_pay2
  refine (truncf_apply (ψ := .bf16) (φ := .f32) _ bitsLt_bf16_f32 (ix2 p e)).trans ?_
  refine (mulf_apply _ _ _).trans ?_
  refine congrArg₂ (· * ·) ?_ rfl
  exact (slice2_axis1_apply 0 _ _ p e e' he).trans (pay1_apply x0 x1 x2 p e')

/-- Entry (p, e) of what the body stores for k: entry (p, 1024 + e) of y. -/
theorem pay3_apply (x0 : Vec Ideal S512x1024 .f32) (x1 : Vec Ideal S1024x3072 .bf16) (x2 : Vec Ideal S3072 .f32)
    (p : Fin 512) (e : Fin 1024) (e' : Fin 3072) (he : e'.val = 1024 + e.val) :
    k0_pay3 (F := Ideal) x0 x1 x2 (ix2 p e)
      = (∑ d : Fin 1024, x0 (ix2 p d) * x1 (ix2 d e')) + x2 (ix1 e') := by
  unfold k0_pay3
  refine (truncf_apply (ψ := .bf16) (φ := .f32) _ bitsLt_bf16_f32 (ix2 p e)).trans ?_
  exact (slice2_axis1_apply 1024 _ _ p e e' he).trans (pay1_apply x0 x1 x2 p e')

/-- Entry (p, e) of what the body stores for v: entry (p, 2048 + e) of y. -/
theorem pay4_apply (x0 : Vec Ideal S512x1024 .f32) (x1 : Vec Ideal S1024x3072 .bf16) (x2 : Vec Ideal S3072 .f32)
    (p : Fin 512) (e : Fin 1024) (e' : Fin 3072) (he : e'.val = 2048 + e.val) :
    k0_pay4 (F := Ideal) x0 x1 x2 (ix2 p e)
      = (∑ d : Fin 1024, x0 (ix2 p d) * x1 (ix2 d e')) + x2 (ix1 e') := by
  unfold k0_pay4
  refine (truncf_apply (ψ := .bf16) (φ := .f32) _ bitsLt_bf16_f32 (ix2 p e)).trans ?_
  exact (slice2_axis1_apply 2048 _ _ p e e' he).trans (pay1_apply x0 x1 x2 p e')

/-! ## The three outputs as functions of the whole input arrays -/

/-- An array over a literal shape read at an index, as an extended real. -/
abbrev rdAt {s : Shape} (a : s.Idx → EReal) (i : s.Idx) : EReal := a i

/-- Entry (r, q) of x · W + b over the whole arrays: the sum over the features of x[r, d] · W[d, q], plus b[q]. -/
def yAt (a0 : S16384x1024.Idx → EReal) (a1 : S1024x3072.Idx → EReal) (a2 : S3072.Idx → EReal) (r : Fin 16384) (q : Fin 3072) : EReal :=
  (∑ d : Fin 1024, a0 (ix2 r d) * a1 (ix2 d q)) + a2 (ix1 q)

/-- The q output: columns 0..1023 of x · W + b, times 1/32. -/
def qArr (a0 : S16384x1024.Idx → EReal) (a1 : S1024x3072.Idx → EReal) (a2 : S3072.Idx → EReal) : S16384x1024.Idx → EReal :=
  fun i => yAt a0 a1 a2 ⟨(i 0).val, idx2_lt0 i⟩ ⟨(i 1).val, by have := idx2_lt1 i; omega⟩ * Ideal.ofBits .f32 0x3D000000#32
/-- The k output: columns 1024..2047 of x · W + b. -/
def kArr (a0 : S16384x1024.Idx → EReal) (a1 : S1024x3072.Idx → EReal) (a2 : S3072.Idx → EReal) : S16384x1024.Idx → EReal :=
  fun i => yAt a0 a1 a2 ⟨(i 0).val, idx2_lt0 i⟩ ⟨1024 + (i 1).val, by have := idx2_lt1 i; omega⟩
/-- The v output: columns 2048..3071 of x · W + b. -/
def vArr (a0 : S16384x1024.Idx → EReal) (a1 : S1024x3072.Idx → EReal) (a2 : S3072.Idx → EReal) : S16384x1024.Idx → EReal :=
  fun i => yAt a0 a1 a2 ⟨(i 0).val, idx2_lt0 i⟩ ⟨2048 + (i 1).val, by have := idx2_lt1 i; omega⟩

/-! ## The blocks -/

theorem hz2 : (![0, 0] : Fin 2 → Nat) = fun _ => 0 := funext fun a => by fin_cases a <;> rfl
theorem hz1 : (![0] : Fin 1 → Nat) = fun _ => 0 := funext fun a => by fin_cases a <;> rfl

/-- The index maps over the grid: x's window and the three outputs' are at row block t, the weights' and the biases'
    at block 0 (their whole arrays). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- x's block at point t is rows 512 t … 512 t + 511 of x. -/
theorem xblk_apply (c : Dev nD) (t : Fin cfg0.N) (p : Fin 512) (d : Fin 1024) (r : Fin 16384)
    (hr : r.val = t.val * 512 + p.val) :
    (iblk0 V c 0 t : Vec Ideal S512x1024 .f32) (ix2 p d) = (V c main_v0 : S16384x1024.Idx → EReal) (ix2 r d) := by
  obtain ⟨e0, e1, -⟩ := idx_facts0 t
  unfold iblk0
  rw [View.read_apply]
  show V c main_v0 _ = V c main_v0 _
  refine congrArg (V c main_v0) ?_
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- The weights' block at every point is the whole matrix. -/
theorem wblk_apply (c : Dev nD) (t : Fin cfg0.N) (d : Fin 1024) (q : Fin 3072) :
    (iblk0 V c 1 t : Vec Ideal S1024x3072 .bf16) (ix2 d q) = (V c main_v3 : S1024x3072.Idx → EReal) (ix2 d q) := by
  obtain ⟨-, -, e0, e1, -⟩ := idx_facts0 t
  unfold iblk0
  rw [View.read_apply]
  show V c main_v3 _ = V c main_v3 _
  refine congrArg (V c main_v3) ?_
  funext a
  apply Fin.ext
  match a with
  | ⟨0, _⟩ => show win0_1.index t (0 : Fin 2) * 1024 + 1 * d.val = d.val; rw [e0]; omega
  | ⟨1, _⟩ => show win0_1.index t (1 : Fin 2) * 3072 + 1 * q.val = q.val; rw [e1]; omega

/-- The biases' block at every point is the whole row. -/
theorem bblk_apply (c : Dev nD) (t : Fin cfg0.N) (q : Fin 3072) :
    (iblk0 V c 2 t : Vec Ideal S3072 .f32) (ix1 q) = (V c main_v4 : S3072.Idx → EReal) (ix1 q) := by
  obtain ⟨-, -, -, -, e0, -⟩ := idx_facts0 t
  unfold iblk0
  rw [View.read_apply]
  show V c main_v4 _ = V c main_v4 _
  refine congrArg (V c main_v4) ?_
  funext a
  apply Fin.ext
  match a with
  | ⟨0, _⟩ => show win0_2.index t (0 : Fin 1) * 3072 + 1 * q.val = q.val; rw [e0]; omega

/-! ## The q output (window 3): what each point writes back -/

/-- What point t leaves for q at (p, e) of its block is the q output's function at row 512 t + p, column e. -/
theorem qpoint (c : Dev nD) (t : Fin cfg0.N) (y : S512x1024.Idx) (i : S16384x1024.Idx)
    (h0 : (i 0).val = t.val * 512 + (y 0).val) (h1 : (i 1).val = (y 1).val) :
    k0_pay2 (F := Ideal) (iblk0 V c 0 t) (iblk0 V c 1 t) (iblk0 V c 2 t) y
      = qArr (V c main_v0) (V c main_v3) (V c main_v4) i := by
  obtain ⟨p, e, rfl⟩ : ∃ (p : Fin 512) (e : Fin 1024), y = ix2 p e := ⟨y 0, y 1, eq_ix2 y⟩
  refine (pay2_apply (iblk0 V c 0 t) (iblk0 V c 1 t) (iblk0 V c 2 t) p e ⟨(i 1).val, by have := idx2_lt1 i; omega⟩
    (by show (i 1).val = 0 + e.val; rw [Nat.zero_add]; exact h1)).trans ?_
  unfold qArr yAt
  refine congrArg₂ (· * ·) (congrArg₂ (· + ·) (Finset.sum_congr rfl fun d _ => ?_) ?_) rfl
  · exact congrArg₂ (· * ·) (xblk_apply V c t p d ⟨(i 0).val, idx2_lt0 i⟩ h0) (wblk_apply V c t d _)
  · exact bblk_apply V c t _

/-- Point t writes back block t of the q output's function. -/
theorem qflushed_eq (c : Dev nD) (t : Fin cfg0.N) :
    (dat0 (F := Ideal) V c).flushed 3 t
      = ((cfg0.win 3).blk t).view.read (Elt Ideal) (qArr (V c main_v0) (V c main_v3) (V c main_v4)) := by
  obtain ⟨-, -, -, -, -, e0, e1, -⟩ := idx_facts0 t
  show (cfg0.win 3).cut (grid0.coords t) ((dat0 (F := Ideal) V c).after 3 t) = _
  rw [after0_3]
  unfold out0_3
  rw [View.canon_unit_zero hz2]
  simp only [View.ld_unit_zero (S := S512x1024) hz2, View.ld_unit_zero (S := S1024x3072) hz2, View.ld_unit_zero (S := S3072) hz1]
  funext j
  show k0_pay2 (F := Ideal) (iblk0 V c 0 t) (iblk0 V c 1 t) (iblk0 V c 2 t) ((cfg0.win 3).xinj (grid0.coords t) j)
      = qArr (V c main_v0) (V c main_v3) (V c main_v4) (((cfg0.win 3).blk t).view.emb j)
  refine qpoint V c t _ _ ?_ ?_
  · show win0_3.index t (0 : Fin 2) * 512 + 1 * (j 0).val = t.val * 512 + (j 0).val; rw [e0]; omega
  · show win0_3.index t (1 : Fin 2) * 1024 + 1 * (j 1).val = (j 1).val; rw [e1]; omega

/-! ## The blocks tile the arrays -/

/-- An index is in the q output's block at point t iff each coordinate is in the block's range on its axis. -/
theorem qmem_blk (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v5_0).slice (win0_3.rect t)).set ↔ _
  rw [View.set_slice_whole, Rect.mem_set_unit]
  exact Iff.rfl

/-- Row r of the q output lies in the block of point r / 512. -/
theorem qcover (i : S16384x1024.Idx) :
    ∃ t : Fin cfg0.N, (cfg0.win 3).flush t = true ∧ i ∈ ((cfg0.win 3).blk t).view.set := by
  have hi0 : (i 0).val < 16384 := idx2_lt0 i
  have hi1 : (i 1).val < 1024 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, e0, e1, -⟩ := idx_facts0 t
  refine ⟨t, flush0_3 t, ?_⟩
  rw [qmem_blk]
  intro a
  match a with
  | ⟨0, _⟩ => show win0_3.index t (0 : Fin 2) * 512 ≤ (i 0).val ∧ (i 0).val < win0_3.index t (0 : Fin 2) * 512 + 512; rw [e0, ht]; omega
  | ⟨1, _⟩ => show win0_3.index t (1 : Fin 2) * 1024 ≤ (i 1).val ∧ (i 1).val < win0_3.index t (1 : Fin 2) * 1024 + 1024; rw [e1]; omega

/-- So the q output ends holding its function of the input arrays. -/
theorem qfinal (c : Dev nD) :
    (dat0 (F := Ideal) V c).arrAt 3 cfg0.N = qArr (V c main_v0) (V c main_v3) (V c main_v4) :=
  (dat0 (F := Ideal) V c).arrAt_eq_of_cover 3 (qArr (V c main_v0) (V c main_v3) (V c main_v4)) (fun t _ => qflushed_eq V c t) qcover

/-- Entry (r, e) of the q output after the region: the sum over the features of x[r, d] · W[d, e], plus b[e], times 1/32. -/
theorem arr0_3 (c : Dev nD) (r : Fin 16384) (e : Fin 1024) :
    (dat0 (F := Ideal) V c).arrAt 3 cfg0.N (ix2 r e)
      = ((∑ d : Fin 1024, rdAt (s := S16384x1024) (V c main_v0) (ix2 r d) * rdAt (s := S1024x3072) (V c main_v3) (ix2 d (⟨e.val, by omega⟩ : Fin 3072)))
          + rdAt (s := S3072) (V c main_v4) (ix1 (⟨e.val, by omega⟩ : Fin 3072))) * Ideal.ofBits .f32 0x3D000000#32 := by
  rw [qfinal V c]
  rfl

/-! ## The k output (window 4) -/

/-- What point t leaves for k at (p, e) of its block is the k output's function at row 512 t + p, column e. -/
theorem kpoint (c : Dev nD) (t : Fin cfg0.N) (y : S512x1024.Idx) (i : S16384x1024.Idx)
    (h0 : (i 0).val = t.val * 512 + (y 0).val) (h1 : (i 1).val = (y 1).val) :
    k0_pay3 (F := Ideal) (iblk0 V c 0 t) (iblk0 V c 1 t) (iblk0 V c 2 t) y
      = kArr (V c main_v0) (V c main_v3) (V c main_v4) i := by
  obtain ⟨p, e, rfl⟩ : ∃ (p : Fin 512) (e : Fin 1024), y = ix2 p e := ⟨y 0, y 1, eq_ix2 y⟩
  refine (pay3_apply (iblk0 V c 0 t) (iblk0 V c 1 t) (iblk0 V c 2 t) p e ⟨1024 + (i 1).val, by have := idx2_lt1 i; omega⟩
    (by show 1024 + (i 1).val = 1024 + e.val; rw [show (i 1).val = e.val from h1])).trans ?_
  unfold kArr yAt
  refine congrArg₂ (· + ·) (Finset.sum_congr rfl fun d _ => ?_) ?_
  · exact congrArg₂ (· * ·) (xblk_apply V c t p d ⟨(i 0).val, idx2_lt0 i⟩ h0) (wblk_apply V c t d _)
  · exact bblk_apply V c t _

/-- Point t writes back block t of the k output's function. -/
theorem kflushed_eq (c : Dev nD) (t : Fin cfg0.N) :
    (dat0 (F := Ideal) V c).flushed 4 t
      = ((cfg0.win 4).blk t).view.read (Elt Ideal) (kArr (V c main_v0) (V c main_v3) (V c main_v4)) := by
  have e0 : win0_4.index t (0 : Fin 2) = t.val := (idx_facts0 t).2.2.2.2.2.2.2.1
  have e1 : win0_4.index t (1 : Fin 2) = 0 := (idx_facts0 t).2.2.2.2.2.2.2.2.1
  show (cfg0.win 4).cut (grid0.coords t) ((dat0 (F := Ideal) V c).after 4 t) = _
  rw [after0_4]
  unfold out0_4
  rw [View.canon_unit_zero hz2]
  simp only [View.ld_unit_zero (S := S512x1024) hz2, View.ld_unit_zero (S := S1024x3072) hz2, View.ld_unit_zero (S := S3072) hz1]
  funext j
  show k0_pay3 (F := Ideal) (iblk0 V c 0 t) (iblk0 V c 1 t) (iblk0 V c 2 t) ((cfg0.win 4).xinj (grid0.coords t) j)
      = kArr (V c main_v0) (V c main_v3) (V c main_v4) (((cfg0.win 4).blk t).view.emb j)
  refine kpoint V c t _ _ ?_ ?_
  · show win0_4.index t (0 : Fin 2) * 512 + 1 * (j 0).val = t.val * 512 + (j 0).val; rw [e0]; omega
  · show win0_4.index t (1 : Fin 2) * 1024 + 1 * (j 1).val = (j 1).val; rw [e1]; omega

/-- An index is in the k output's block at point t iff each coordinate is in the block's range on its axis. -/
theorem kmem_blk (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5_1).slice (win0_4.rect t)).set ↔ _
  rw [View.set_slice_whole, Rect.mem_set_unit]
  exact Iff.rfl

/-- Row r of the k output lies in the block of point r / 512. -/
theorem kcover (i : S16384x1024.Idx) :
    ∃ t : Fin cfg0.N, (cfg0.win 4).flush t = true ∧ i ∈ ((cfg0.win 4).blk t).view.set := by
  have hi0 : (i 0).val < 16384 := idx2_lt0 i
  have hi1 : (i 1).val < 1024 := idx2_lt1 i
  have hN : cfg0.N = 32 := N_0
  obtain ⟨t, ht⟩ : ∃ t : Fin cfg0.N, t.val = (i 0).val / 512 := ⟨⟨(i 0).val / 512, by rw [hN]; omega⟩, rfl⟩
  have e0 : win0_4.index t (0 : Fin 2) = t.val := (idx_facts0 t).2.2.2.2.2.2.2.1
  have e1 : win0_4.index t (1 : Fin 2) = 0 := (idx_facts0 t).2.2.2.2.2.2.2.2.1
  refine ⟨t, flush0_4 t, ?_⟩
  rw [kmem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1]; omega

/-- So the k output ends holding its function of the input arrays. -/
theorem kfinal (c : Dev nD) :
    (dat0 (F := Ideal) V c).arrAt 4 cfg0.N = kArr (V c main_v0) (V c main_v3) (V c main_v4) :=
  (dat0 (F := Ideal) V c).arrAt_eq_of_cover 4 (kArr (V c main_v0) (V c main_v3) (V c main_v4)) (fun t _ => kflushed_eq V c t) kcover

/-- Entry (r, e) of the k output after the region: the sum over the features of x[r, d] · W[d, 1024 + e], plus b[1024 + e]. -/
theorem arr0_4 (c : Dev nD) (r : Fin 16384) (e : Fin 1024) :
    (dat0 (F := Ideal) V c).arrAt 4 cfg0.N (ix2 r e)
      = (∑ d : Fin 1024, rdAt (s := S16384x1024) (V c main_v0) (ix2 r d) * rdAt (s := S1024x3072) (V c main_v3) (ix2 d (⟨1024 + e.val, by omega⟩ : Fin 3072)))
          + rdAt (s := S3072) (V c main_v4) (ix1 (⟨1024 + e.val, by omega⟩ : Fin 3072)) := by
  rw [kfinal V c]
  rfl

/-! ## The v output (window 5) -/

/-- What point t leaves for v at (p, e) of its block is the v output's function at row 512 t + p, column e. -/
theorem vpoint (c : Dev nD) (t : Fin cfg0.N) (y : S512x1024.Idx) (i : S16384x1024.Idx)
    (h0 : (i 0).val = t.val * 512 + (y 0).val) (h1 : (i 1).val = (y 1).val) :
    k0_pay4 (F := Ideal) (iblk0 V c 0 t) (iblk0 V c 1 t) (iblk0 V c 2 t) y
      = vArr (V c main_v0) (V c main_v3) (V c main_v4) i := by
  obtain ⟨p, e, rfl⟩ : ∃ (p : Fin 512) (e : Fin 1024), y = ix2 p e := ⟨y 0, y 1, eq_ix2 y⟩
  refine (pay4_apply (iblk0 V c 0 t) (iblk0 V c 1 t) (iblk0 V c 2 t) p e ⟨2048 + (i 1).val, by have := idx2_lt1 i; omega⟩
    (by show 2048 + (i 1).val = 2048 + e.val; rw [show (i 1).val = e.val from h1])).trans ?_
  unfold vArr yAt
  refine congrArg₂ (· + ·) (Finset.sum_congr rfl fun d _ => ?_) ?_
  · exact congrArg₂ (· * ·) (xblk_apply V c t p d ⟨(i 0).val, idx2_lt0 i⟩ h0) (wblk_apply V c t d _)
  · exact bblk_apply V c t _

/-- Point t writes back block t of the v output's function. -/
theorem vflushed_eq (c : Dev nD) (t : Fin cfg0.N) :
    (dat0 (F := Ideal) V c).flushed 5 t
      = ((cfg0.win 5).blk t).view.read (Elt Ideal) (vArr (V c main_v0) (V c main_v3) (V c main_v4)) := by
  have e0 : win0_5.index t (0 : Fin 2) = t.val := (idx_facts0 t).2.2.2.2.2.2.2.2.2.1
  have e1 : win0_5.index t (1 : Fin 2) = 0 := (idx_facts0 t).2.2.2.2.2.2.2.2.2.2
  show (cfg0.win 5).cut (grid0.coords t) ((dat0 (F := Ideal) V c).after 5 t) = _
  rw [after0_5]
  unfold out0_5
  rw [View.canon_unit_zero hz2]
  simp only [View.ld_unit_zero (S := S512x1024) hz2, View.ld_unit_zero (S := S1024x3072) hz2, View.ld_unit_zero (S := S3072) hz1]
  funext j
  show k0_pay4 (F := Ideal) (iblk0 V c 0 t) (iblk0 V c 1 t) (iblk0 V c 2 t) ((cfg0.win 5).xinj (grid0.coords t) j)
      = vArr (V c main_v0) (V c main_v3) (V c main_v4) (((cfg0.win 5).blk t).view.emb j)
  refine vpoint V c t _ _ ?_ ?_
  · show win0_5.index t (0 : Fin 2) * 512 + 1 * (j 0).val = t.val * 512 + (j 0).val; rw [e0]; omega
  · show win0_5.index t (1 : Fin 2) * 1024 + 1 * (j 1).val = (j 1).val; rw [e1]; omega

/-- An index is in the v output's block at point t iff each coordinate is in the block's range on its axis. -/
theorem vmem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5_2).slice (win0_5.rect t)).set ↔ _
  rw [View.set_slice_whole, Rect.mem_set_unit]
  exact Iff.rfl

/-- Row r of the v output lies in the block of point r / 512. -/
theorem vcover (i : S16384x1024.Idx) :
    ∃ t : Fin cfg0.N, (cfg0.win 5).flush t = true ∧ i ∈ ((cfg0.win 5).blk t).view.set := by
  have hi0 : (i 0).val < 16384 := idx2_lt0 i
  have hi1 : (i 1).val < 1024 := idx2_lt1 i
  have hN : cfg0.N = 32 := N_0
  obtain ⟨t, ht⟩ : ∃ t : Fin cfg0.N, t.val = (i 0).val / 512 := ⟨⟨(i 0).val / 512, by rw [hN]; omega⟩, rfl⟩
  have e0 : win0_5.index t (0 : Fin 2) = t.val := (idx_facts0 t).2.2.2.2.2.2.2.2.2.1
  have e1 : win0_5.index t (1 : Fin 2) = 0 := (idx_facts0 t).2.2.2.2.2.2.2.2.2.2
  refine ⟨t, flush0_5 t, ?_⟩
  rw [vmem_blk]
  intro a
  match a with
  | ⟨0, _⟩ => show win0_5.index t (0 : Fin 2) * 512 ≤ (i 0).val ∧ (i 0).val < win0_5.index t (0 : Fin 2) * 512 + 512; rw [e0, ht]; omega
  | ⟨1, _⟩ => show win0_5.index t (1 : Fin 2) * 1024 ≤ (i 1).val ∧ (i 1).val < win0_5.index t (1 : Fin 2) * 1024 + 1024; rw [e1]; omega

/-- So the v output ends holding its function of the input arrays. -/
theorem vfinal (c : Dev nD) :
    (dat0 (F := Ideal) V c).arrAt 5 cfg0.N = vArr (V c main_v0) (V c main_v3) (V c main_v4) :=
  (dat0 (F := Ideal) V c).arrAt_eq_of_cover 5 (vArr (V c main_v0) (V c main_v3) (V c main_v4)) (fun t _ => vflushed_eq V c t) vcover

/-- Entry (r, e) of the v output after the region: the sum over the features of x[r, d] · W[d, 2048 + e], plus b[2048 + e]. -/
theorem arr0_5 (c : Dev nD) (r : Fin 16384) (e : Fin 1024) :
    (dat0 (F := Ideal) V c).arrAt 5 cfg0.N (ix2 r e)
      = (∑ d : Fin 1024, rdAt (s := S16384x1024) (V c main_v0) (ix2 r d) * rdAt (s := S1024x3072) (V c main_v3) (ix2 d (⟨2048 + e.val, by omega⟩ : Fin 3072)))
          + rdAt (s := S3072) (V c main_v4) (ix1 (⟨2048 + e.val, by omega⟩ : Fin 3072)) := by
  rw [vfinal V c]
  rfl

end Cert.KernelIdeal.HandVal

end
-- ==== Proof.KVal1.lean ====
/-
  The attention call's value at the extended reals, for any contents the region finds in its arrays. A grid point is a
  batch n and a block of 512 query rows; its body reads the 512 query rows, all 2048 key rows and all 2048 value rows of
  batch n and stores, for query row s and feature e,
      (∑ j, exp (score s j - M s) * v j e) / (∑ j, exp (score s j - M s)),
  where score s j = ∑ d, q s d * k j d and M s is the maximum over the keys j of score s j, folded from -∞. Read entry by
  entry: the two matrix products are sums over the contracted coordinate, the row maximum is a fold of max and the row
  sum a sum over the key coordinate, the column casts and broadcasts repeat a row's value along the row, and the leading
  unit axis of each block is dropped and put back. The 32 output blocks (8 batches by 4 row blocks) tile the output
  array, and each is the block of ONE function of the three input arrays, so the array ends holding that function.
-/
import proofs.«147454_j31155692765425_2_alg».proof.Proof.KDefs
import proofs.«147454_j31155692765425_2_alg».proof.Proof.SpecIdx
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen Cert.KernelIdeal.Hand
open scoped BigOperators

variable (V : (c : Dev nD) → (b : Ref sig .tc) → Buf (Elt Ideal) ((c : Thread nD τ).loc b))

namespace Attn

/-! ## The body's operations read at an entry -/

theorem scores_lhs0 (i : S512x2048.Idx) (q : dot_S512x1024_S2048x1024_S512x2048_1_1_0_0_n_n.contr.Idx) :
    (dot_S512x1024_S2048x1024_S512x2048_1_1_0_0_n_n.lhsIdx i q 0).val = (i 0).val := by
  unfold DotDims.lhsIdx
  rw [dif_neg (show ¬(0 : Fin S512x1024.rank) ∈ dot_S512x1024_S2048x1024_S512x2048_1_1_0_0_n_n.lhsBatch by decide), dif_pos (show (0 : Fin S512x1024.rank) ∈ dot_S512x1024_S2048x1024_S512x2048_1_1_0_0_n_n.lhsNonContracting by decide)]
  rfl
theorem scores_lhs1 (i : S512x2048.Idx) (q : dot_S512x1024_S2048x1024_S512x2048_1_1_0_0_n_n.contr.Idx) :
    (dot_S512x1024_S2048x1024_S512x2048_1_1_0_0_n_n.lhsIdx i q 1).val = (q ⟨0, by decide⟩).val :=
  dot_S512x1024_S2048x1024_S512x2048_1_1_0_0_n_n.lhsIdx_val_of_single rfl i q
theorem scores_rhs0 (i : S512x2048.Idx) (q : dot_S512x1024_S2048x1024_S512x2048_1_1_0_0_n_n.contr.Idx) :
    (dot_S512x1024_S2048x1024_S512x2048_1_1_0_0_n_n.rhsIdx i q 0).val = (i 1).val := by
  unfold DotDims.rhsIdx
  rw [dif_neg (show ¬(0 : Fin S2048x1024.rank) ∈ dot_S512x1024_S2048x1024_S512x2048_1_1_0_0_n_n.rhsBatch by decide), dif_pos (show (0 : Fin S2048x1024.rank) ∈ dot_S512x1024_S2048x1024_S512x2048_1_1_0_0_n_n.rhsNonContracting by decide)]
  rfl
theorem scores_rhs1 (i : S512x2048.Idx) (q : dot_S512x1024_S2048x1024_S512x2048_1_1_0_0_n_n.contr.Idx) :
    (dot_S512x1024_S2048x1024_S512x2048_1_1_0_0_n_n.rhsIdx i q 1).val = (q ⟨0, by decide⟩).val :=
  dot_S512x1024_S2048x1024_S512x2048_1_1_0_0_n_n.rhsIdx_val_of_single rfl i q

/-- The scores' product contracts the feature coordinate of both operands: entry (r, j) is ∑ d, a r d * b j d. -/
theorem scores_apply (a : FVec Ideal S512x1024 .bf16) (b : FVec Ideal S2048x1024 .bf16) (r : Fin 512) (j : Fin 2048) :
    matmul dot_S512x1024_S2048x1024_S512x2048_1_1_0_0_n_n none a b (constant (F := Ideal) S512x2048 .f32 0x00000000#32) (ix2 r j)
      = ∑ d : Fin 1024, a (ix2 r d) * b (ix2 j d) := by
  refine (Ideal.matmul_constant_zero_apply dot_S512x1024_S2048x1024_S512x2048_1_1_0_0_n_n none a b (ix2 r j)).trans ?_
  rw [← Equiv.sum_comp (contrEquiv1 dot_S512x1024_S2048x1024_S512x2048_1_1_0_0_n_n 1024 rfl rfl).symm]
  refine Finset.sum_congr rfl fun k _ => ?_
  have hk := contrEquiv1_symm_val dot_S512x1024_S2048x1024_S512x2048_1_1_0_0_n_n 1024 rfl rfl k
  have el : dot_S512x1024_S2048x1024_S512x2048_1_1_0_0_n_n.lhsIdx (ix2 r j) ((contrEquiv1 dot_S512x1024_S2048x1024_S512x2048_1_1_0_0_n_n 1024 rfl rfl).symm k) = ix2 r k := funext fun ax => Fin.ext (by
    match ax with
    | ⟨0, _⟩ => exact scores_lhs0 _ _
    | ⟨1, _⟩ => exact (scores_lhs1 _ _).trans hk)
  have er : dot_S512x1024_S2048x1024_S512x2048_1_1_0_0_n_n.rhsIdx (ix2 r j) ((contrEquiv1 dot_S512x1024_S2048x1024_S512x2048_1_1_0_0_n_n 1024 rfl rfl).symm k) = ix2 j k := funext fun ax => Fin.ext (by
    match ax with
    | ⟨0, _⟩ => exact scores_rhs0 _ _
    | ⟨1, _⟩ => exact (scores_rhs1 _ _).trans hk)
  rw [el, er]

theorem weighted_lhs0 (i : S512x1024.Idx) (q : dot_S512x2048_S2048x1024_S512x1024_1_0_0_1_n_n.contr.Idx) :
    (dot_S512x2048_S2048x1024_S512x1024_1_0_0_1_n_n.lhsIdx i q 0).val = (i 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem weighted_lhs1 (i : S512x1024.Idx) (q : dot_S512x2048_S2048x1024_S512x1024_1_0_0_1_n_n.contr.Idx) :
    (dot_S512x2048_S2048x1024_S512x1024_1_0_0_1_n_n.lhsIdx i q 1).val = (q ⟨0, by decide⟩).val :=
  dot_S512x2048_S2048x1024_S512x1024_1_0_0_1_n_n.lhsIdx_val_of_single rfl i q
theorem weighted_rhs0 (i : S512x1024.Idx) (q : dot_S512x2048_S2048x1024_S512x1024_1_0_0_1_n_n.contr.Idx) :
    (dot_S512x2048_S2048x1024_S512x1024_1_0_0_1_n_n.rhsIdx i q 0).val = (q ⟨0, by decide⟩).val :=
  dot_S512x2048_S2048x1024_S512x1024_1_0_0_1_n_n.rhsIdx_val_of_single rfl i q
theorem weighted_rhs1 (i : S512x1024.Idx) (q : dot_S512x2048_S2048x1024_S512x1024_1_0_0_1_n_n.contr.Idx) :
    (dot_S512x2048_S2048x1024_S512x1024_1_0_0_1_n_n.rhsIdx i q 1).val = (i 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl

/-- The weighted sum's product contracts the key coordinate: entry (r, e) is ∑ j, p r j * v j e. -/
theorem weighted_apply (p : FVec Ideal S512x2048 .bf16) (v : FVec Ideal S2048x1024 .bf16) (r : Fin 512) (e : Fin 1024) :
    matmul dot_S512x2048_S2048x1024_S512x1024_1_0_0_1_n_n none p v (constant (F := Ideal) S512x1024 .f32 0x00000000#32) (ix2 r e)
      = ∑ j : Fin 2048, p (ix2 r j) * v (ix2 j e) := by
  refine (Ideal.matmul_constant_zero_apply dot_S512x2048_S2048x1024_S512x1024_1_0_0_1_n_n none p v (ix2 r e)).trans ?_
  rw [← Equiv.sum_comp (contrEquiv1 dot_S512x2048_S2048x1024_S512x1024_1_0_0_1_n_n 2048 rfl rfl).symm]
  refine Finset.sum_congr rfl fun k _ => ?_
  have hk := contrEquiv1_symm_val dot_S512x2048_S2048x1024_S512x1024_1_0_0_1_n_n 2048 rfl rfl k
  have el : dot_S512x2048_S2048x1024_S512x1024_1_0_0_1_n_n.lhsIdx (ix2 r e) ((contrEquiv1 dot_S512x2048_S2048x1024_S512x1024_1_0_0_1_n_n 2048 rfl rfl).symm k) = ix2 r k := funext fun ax => Fin.ext (by
    match ax with
    | ⟨0, _⟩ => exact weighted_lhs0 _ _
    | ⟨1, _⟩ => exact (weighted_lhs1 _ _).trans hk)
  have er : dot_S512x2048_S2048x1024_S512x1024_1_0_0_1_n_n.rhsIdx (ix2 r e) ((contrEquiv1 dot_S512x2048_S2048x1024_S512x1024_1_0_0_1_n_n 2048 rfl rfl).symm k) = ix2 k e := funext fun ax => Fin.ext (by
    match ax with
    | ⟨0, _⟩ => exact (weighted_rhs0 _ _).trans hk
    | ⟨1, _⟩ => exact weighted_rhs1 _ _)
  rw [el, er]

/-- A row's maximum: the fold of max over the row's 2048 entries, from the value of the accumulator's word. -/
theorem rowMax_apply (s : FVec Ideal S512x2048 .f32) (hφ : FKind.Formats .f32)
    (hacc : (0xFF800000#32 : BitVec FTy.f32.bits) = FKind.maximumf.neutral .f32 hφ) (r : Fin 512) :
    multiReduction .maximumf [1] S512 s 0xFF800000#32 reduces_S512x2048_S512 hφ hacc (ix1 r)
      = (Finset.univ : Finset (Fin 2048)).fold max (Ideal.ofBits .f32 0xFF800000#32) (fun j => s (ix2 r j)) := by
  refine (Ideal.multiReduction_maximumf_single s 0xFF800000#32 reduces_S512x2048_S512 hφ hacc (ix1 r)).trans ?_
  refine congrArg (fun f : Fin 2048 → EReal => (Finset.univ : Finset (Fin 2048)).fold max (Ideal.ofBits .f32 0xFF800000#32) f)
    (funext fun j => congrArg s (funext fun ax => Fin.ext ?_))
  match ax with
  | ⟨0, _⟩ => rfl
  | ⟨1, _⟩ => rfl

/-- A row's sum: the sum of the row's 2048 entries. -/
theorem rowSum_apply (p : FVec Ideal S512x2048 .f32) (hφ : FKind.Formats .f32)
    (hacc : (0x00000000#32 : BitVec FTy.f32.bits) = FKind.add.neutral .f32 hφ) (r : Fin 512) :
    multiReduction .add [1] S512 p 0x00000000#32 reduces_S512x2048_S512 hφ hacc (ix1 r)
      = ∑ j : Fin 2048, p (ix2 r j) := by
  refine (Ideal.multiReduction_add_single p 0x00000000#32 reduces_S512x2048_S512 hφ hacc (ix1 r)).trans ?_
  show ∑ j : Fin 2048, p (reduces_S512x2048_S512.lift (ix1 r) j) = _
  refine Finset.sum_congr rfl fun j _ => congrArg p (funext fun ax => Fin.ext ?_)
  match ax with
  | ⟨0, _⟩ => rfl
  | ⟨1, _⟩ => rfl

/-- A vector of a entries cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (i, c), the column at i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-! ## The body's value at an entry -/

/-- One query row's attention at feature e, of the row q, the key rows k and the value rows v: the exponentials'
    weighted sum of the value rows over the exponentials' sum, each score less the scores' maximum over the keys
    (folded from -∞) inside its exponential. -/
def attnRow (q : Fin 1024 → EReal) (k v : Fin 2048 → Fin 1024 → EReal) (e : Fin 1024) : EReal :=
  Ideal.div
    (∑ j : Fin 2048, Ideal.exp ((∑ d : Fin 1024, q d * k j d)
        - (Finset.univ : Finset (Fin 2048)).fold max (Ideal.ofBits .f32 0xFF800000#32) (fun j' => ∑ d : Fin 1024, q d * k j' d)) * v j e)
    (∑ j : Fin 2048, Ideal.exp ((∑ d : Fin 1024, q d * k j d)
        - (Finset.univ : Finset (Fin 2048)).fold max (Ideal.ofBits .f32 0xFF800000#32) (fun j' => ∑ d : Fin 1024, q d * k j' d)))

/-- The exponential of each score less its row's maximum, as the body computes it: the row maxima, cast to a column,
    broadcast along the rows, subtracted. -/
def expRows (s : FVec Ideal S512x2048 .f32) : FVec Ideal S512x2048 .f32 :=
  exp (subf s (broadcastTo S512x2048 (shapeCast S512x1 (multiReduction .maximumf [1] S512 s 0xFF800000#32 reduces_S512x2048_S512 (.inl rfl) rfl) shapeCasts_S512_S512x1) broadcasts_S512x1_S512x2048))

theorem expRows_apply (s : FVec Ideal S512x2048 .f32) (r : Fin 512) (j : Fin 2048) :
    expRows s (ix2 r j)
      = Ideal.exp (s (ix2 r j) - (Finset.univ : Finset (Fin 2048)).fold max (Ideal.ofBits .f32 0xFF800000#32) (fun j' => s (ix2 r j'))) := by
  unfold expRows
  show Ideal.exp (s (ix2 r j) - broadcastTo S512x2048 (shapeCast S512x1 (multiReduction .maximumf [1] S512 s 0xFF800000#32 reduces_S512x2048_S512 (.inl rfl) rfl) shapeCasts_S512_S512x1) broadcasts_S512x1_S512x2048 (ix2 r j)) = _
  refine congrArg (fun m => Ideal.exp (s (ix2 r j) - m)) ?_
  refine (broadcastTo_a1_ab_apply _ broadcasts_S512x1_S512x2048 r j).trans ?_
  refine (shapeCast_a_a1_apply _ shapeCasts_S512_S512x1 r 0).trans ?_
  exact rowMax_apply s (.inl rfl) rfl r

/-- The 512 query rows' attention as the body computes it from the three matrices: the scores, their exponentials
    less the row maxima, the weighted sum of the value rows, divided by the row sums of the exponentials. -/
def attnRows (q : FVec Ideal S512x1024 .bf16) (k v : FVec Ideal S2048x1024 .bf16) : FVec Ideal S512x1024 .f32 :=
  divf
    (matmul dot_S512x2048_S2048x1024_S512x1024_1_0_0_1_n_n none
      (truncf .bf16 (expRows (matmul dot_S512x1024_S2048x1024_S512x2048_1_1_0_0_n_n none q k (constant (F := Ideal) S512x2048 .f32 0x00000000#32))) bitsLt_bf16_f32)
      v (constant (F := Ideal) S512x1024 .f32 0x00000000#32))
    (broadcastTo S512x1024
      (shapeCast S512x1
        (multiReduction .add [1] S512 (expRows (matmul dot_S512x1024_S2048x1024_S512x2048_1_1_0_0_n_n none q k (constant (F := Ideal) S512x2048 .f32 0x00000000#32))) 0x00000000#32 reduces_S512x2048_S512 (.inl rfl) rfl)
        shapeCasts_S512_S512x1)
      broadcasts_S512x1_S512x1024)

/-- An exponential of the body, at an entry. -/
theorem expScores_apply (q : FVec Ideal S512x1024 .bf16) (k : FVec Ideal S2048x1024 .bf16) (r : Fin 512) (j : Fin 2048) :
    expRows (matmul dot_S512x1024_S2048x1024_S512x2048_1_1_0_0_n_n none q k (constant (F := Ideal) S512x2048 .f32 0x00000000#32)) (ix2 r j)
      = Ideal.exp ((∑ d : Fin 1024, q (ix2 r d) * k (ix2 j d))
          - (Finset.univ : Finset (Fin 2048)).fold max (Ideal.ofBits .f32 0xFF800000#32) (fun j' => ∑ d : Fin 1024, q (ix2 r d) * k (ix2 j' d))) := by
  refine (expRows_apply _ r j).trans ?_
  rw [scores_apply q k r j]
  refine congrArg (fun f : Fin 2048 → EReal => Ideal.exp ((∑ d : Fin 1024, q (ix2 r d) * k (ix2 j d))
      - (Finset.univ : Finset (Fin 2048)).fold max (Ideal.ofBits .f32 0xFF800000#32) f)) (funext fun j' => scores_apply q k r j')

theorem attnRows_apply (q : FVec Ideal S512x1024 .bf16) (k v : FVec Ideal S2048x1024 .bf16) (r : Fin 512) (e : Fin 1024) :
    attnRows q k v (ix2 r e) = attnRow (fun d => q (ix2 r d)) (fun j d => k (ix2 j d)) (fun j d => v (ix2 j d)) e := by
  unfold attnRows attnRow
  refine (divf_apply _ _ (ix2 r e)).trans ?_
  refine congr (congrArg Ideal.div ?_) ?_
  · refine (weighted_apply _ v r e).trans ?_
    refine Finset.sum_congr rfl fun j _ => ?_
    refine congrArg (fun x => x * v (ix2 j e)) ?_
    exact (truncf_apply _ bitsLt_bf16_f32 (ix2 r j)).trans (expScores_apply q k r j)
  · refine (broadcastTo_a1_ab_apply _ broadcasts_S512x1_S512x1024 r e).trans ?_
    refine (shapeCast_a_a1_apply _ shapeCasts_S512_S512x1 r 0).trans ?_
    refine (rowSum_apply _ (.inl rfl) rfl r).trans ?_
    exact Finset.sum_congr rfl fun j _ => expScores_apply q k r j

/-- The body's payload is the rows' attention of its three blocks with their leading unit axis dropped, the unit axis
    put back. -/
theorem payload_eq (x0 : FVec Ideal S1x512x1024 .bf16) (x1 x2 : FVec Ideal S1x2048x1024 .bf16) :
    k1_pay1 (F := Ideal) x0 x1 x2
      = shapeCast S1x512x1024 (attnRows (shapeCast S512x1024 x0 shapeCasts_S1x512x1024_S512x1024)
          (shapeCast S2048x1024 x1 shapeCasts_S1x2048x1024_S2048x1024) (shapeCast S2048x1024 x2 shapeCasts_S1x2048x1024_S2048x1024))
          shapeCasts_S512x1024_S1x512x1024 := rfl

/-- THE PAYLOAD AT AN ENTRY: row r, feature e of the block is that query row's attention against the block's keys and values. -/
theorem payload_apply (x0 : FVec Ideal S1x512x1024 .bf16) (x1 x2 : FVec Ideal S1x2048x1024 .bf16) (u : Fin 1) (r : Fin 512) (e : Fin 1024) :
    k1_pay1 (F := Ideal) x0 x1 x2 (ix3 u r e)
      = attnRow (fun d => x0 (ix3 (0 : Fin 1) r d)) (fun j d => x1 (ix3 (0 : Fin 1) j d)) (fun j d => x2 (ix3 (0 : Fin 1) j d)) e := by
  rw [payload_eq]
  refine (shapeCast_ab_1ab_apply _ shapeCasts_S512x1024_S1x512x1024 u r e).trans ?_
  refine (attnRows_apply _ _ _ r e).trans ?_
  refine congr (congr (congr (congrArg attnRow ?_) ?_) ?_) rfl
  · exact funext fun d => shapeCast_1ab_ab_apply x0 shapeCasts_S1x512x1024_S512x1024 r d
  · exact funext fun j => funext fun d => shapeCast_1ab_ab_apply x1 shapeCasts_S1x2048x1024_S2048x1024 j d
  · exact funext fun j => funext fun d => shapeCast_1ab_ab_apply x2 shapeCasts_S1x2048x1024_S2048x1024 j d

/-- The same at any index of the block whose row and feature coordinates are r and e. -/
theorem payload_at (x0 : FVec Ideal S1x512x1024 .bf16) (x1 x2 : FVec Ideal S1x2048x1024 .bf16) (z : S1x512x1024.Idx) (r : Fin 512) (e : Fin 1024)
    (hr : (z 1).val = r.val) (he : (z 2).val = e.val) :
    k1_pay1 (F := Ideal) x0 x1 x2 z
      = attnRow (fun d => x0 (ix3 (0 : Fin 1) r d)) (fun j d => x1 (ix3 (0 : Fin 1) j d)) (fun j d => x2 (ix3 (0 : Fin 1) j d)) e := by
  have hz : z = ix3 (0 : Fin 1) r e := funext fun a => Fin.ext (by
    match a with
    | ⟨0, _⟩ => have h := (z 0).isLt; show (z 0).val = 0; have h' : (z 0).val < 1 := h; omega
    | ⟨1, _⟩ => exact hr
    | ⟨2, _⟩ => exact he)
  rw [hz]
  exact payload_apply x0 x1 x2 0 r e

/-! ## From the blocks to the array -/

theorem zeros3 : (![0, 0, 0] : Fin 3 → Nat) = fun _ => 0 := funext fun a => by fin_cases a <;> rfl

/-- The index maps over the grid: point t is batch t / 4 and query row block t % 4; the query and output windows are at
    block (t / 4, t % 4, 0), the key and value windows at block (t / 4, 0, 0). -/
theorem block_index : ∀ t : Fin cfg1.N,
    win1_0.index t (0 : Fin 3) = t.val / 4 ∧ win1_0.index t (1 : Fin 3) = t.val % 4 ∧ win1_0.index t (2 : Fin 3) = 0
    ∧ win1_1.index t (0 : Fin 3) = t.val / 4 ∧ win1_1.index t (1 : Fin 3) = 0 ∧ win1_1.index t (2 : Fin 3) = 0
    ∧ win1_2.index t (0 : Fin 3) = t.val / 4 ∧ win1_2.index t (1 : Fin 3) = 0 ∧ win1_2.index t (2 : Fin 3) = 0
    ∧ win1_3.index t (0 : Fin 3) = t.val / 4 ∧ win1_3.index t (1 : Fin 3) = t.val % 4 ∧ win1_3.index t (2 : Fin 3) = 0 :=
  (by decide +kernel : ∀ t : Fin grid1.N, _)

/-- What the output array ends holding, as a function of the three input arrays: entry (n, s, e) is query row (n, s)'s
    attention against batch n's key and value rows, at feature e. -/
def attnOf (q k v : S8x2048x1024.Idx → EReal) : S8x2048x1024.Idx → EReal := fun i =>
  attnRow (fun d => q (ix3 (i 0 : Fin 8) (i 1 : Fin 2048) d)) (fun j d => k (ix3 (i 0 : Fin 8) j d)) (fun j d => v (ix3 (i 0 : Fin 8) j d)) (i 2 : Fin 1024)

theorem attnOf_at (q k v : S8x2048x1024.Idx → EReal) (i : S8x2048x1024.Idx) (n : Fin 8) (s : Fin 2048) (e : Fin 1024)
    (h0 : (i 0).val = n.val) (h1 : (i 1).val = s.val) (h2 : (i 2).val = e.val) :
    attnOf q k v i = attnRow (fun d => q (ix3 n s d)) (fun j d => k (ix3 n j d)) (fun j d => v (ix3 n j d)) e := by
  have hi : i = ix3 n s e := funext fun a => Fin.ext (by
    match a with
    | ⟨0, _⟩ => exact h0
    | ⟨1, _⟩ => exact h1
    | ⟨2, _⟩ => exact h2)
  rw [hi]
  rfl

/-- The query window's block at point t: row r of the block is row (t % 4) * 512 + r of batch t / 4. -/
theorem queryBlock_apply (c : Dev nD) (t : Fin cfg1.N) (r : Fin 512) (d : Fin 1024) (n : Fin 8) (s : Fin 2048)
    (hn : n.val = t.val / 4) (hs : s.val = t.val % 4 * 512 + r.val) :
    (iblk1 V c 0 t : FVec Ideal S1x512x1024 .bf16) (ix3 (0 : Fin 1) r d) = (V c main_v6 : S8x2048x1024.Idx → EReal) (ix3 n s d) := by
  obtain ⟨e0, e1, e2, -⟩ := block_index t
  unfold iblk1
  rw [View.read_apply]
  show (V c main_v6 : S8x2048x1024.Idx → EReal) _ = (V c main_v6 : S8x2048x1024.Idx → EReal) _
  refine congrArg (V c main_v6 : S8x2048x1024.Idx → EReal) (funext fun a => Fin.ext ?_)
  match a with
  | ⟨0, _⟩ => show win1_0.index t (0 : Fin 3) * 1 + 1 * 0 = n.val; omega
  | ⟨1, _⟩ => show win1_0.index t (1 : Fin 3) * 512 + 1 * r.val = s.val; omega
  | ⟨2, _⟩ => show win1_0.index t (2 : Fin 3) * 1024 + 1 * d.val = d.val; omega

/-- The key window's block at point t: all 2048 rows of batch t / 4. -/
theorem keyBlock_apply (c : Dev nD) (t : Fin cfg1.N) (j : Fin 2048) (d : Fin 1024) (n : Fin 8) (hn : n.val = t.val / 4) :
    (iblk1 V c 1 t : FVec Ideal S1x2048x1024 .bf16) (ix3 (0 : Fin 1) j d) = (V c main_v7 : S8x2048x1024.Idx → EReal) (ix3 n j d) := by
  obtain ⟨-, -, -, e0, e1, e2, -⟩ := block_index t
  unfold iblk1
  rw [View.read_apply]
  show (V c main_v7 : S8x2048x1024.Idx → EReal) _ = (V c main_v7 : S8x2048x1024.Idx → EReal) _
  refine congrArg (V c main_v7 : S8x2048x1024.Idx → EReal) (funext fun a => Fin.ext ?_)
  match a with
  | ⟨0, _⟩ => show win1_1.index t (0 : Fin 3) * 1 + 1 * 0 = n.val; omega
  | ⟨1, _⟩ => show win1_1.index t (1 : Fin 3) * 2048 + 1 * j.val = j.val; omega
  | ⟨2, _⟩ => show win1_1.index t (2 : Fin 3) * 1024 + 1 * d.val = d.val; omega

/-- The value window's block at point t: all 2048 rows of batch t / 4. -/
theorem valueBlock_apply (c : Dev nD) (t : Fin cfg1.N) (j : Fin 2048) (d : Fin 1024) (n : Fin 8) (hn : n.val = t.val / 4) :
    (iblk1 V c 2 t : FVec Ideal S1x2048x1024 .bf16) (ix3 (0 : Fin 1) j d) = (V c main_v8 : S8x2048x1024.Idx → EReal) (ix3 n j d) := by
  obtain ⟨-, -, -, -, -, -, e0, e1, e2, -⟩ := block_index t
  unfold iblk1
  rw [View.read_apply]
  show (V c main_v8 : S8x2048x1024.Idx → EReal) _ = (V c main_v8 : S8x2048x1024.Idx → EReal) _
  refine congrArg (V c main_v8 : S8x2048x1024.Idx → EReal) (funext fun a => Fin.ext ?_)
  match a with
  | ⟨0, _⟩ => show win1_2.index t (0 : Fin 3) * 1 + 1 * 0 = n.val; omega
  | ⟨1, _⟩ => show win1_2.index t (1 : Fin 3) * 2048 + 1 * j.val = j.val; omega
  | ⟨2, _⟩ => show win1_2.index t (2 : Fin 3) * 1024 + 1 * d.val = d.val; omega

/-- WHAT POINT t WRITES BACK is block t of that function of the three input arrays as the region finds them. -/
theorem writeBack_eq (c : Dev nD) (t : Fin cfg1.N) :
    (dat1 (F := Ideal) V c).flushed 3 t
      = ((cfg1.win 3).blk t).view.read (Elt Ideal) (attnOf (V c main_v6) (V c main_v7) (V c main_v8)) := by
  show (cfg1.win 3).cut (grid1.coords t) ((dat1 (F := Ideal) V c).after 3 t) = _
  rw [after1_3]
  unfold out1_3
  rw [View.canon_unit_zero zeros3]
  simp only [View.ld_unit_zero (S := S1x512x1024) zeros3, View.ld_unit_zero (S := S1x2048x1024) zeros3]
  obtain ⟨-, -, -, -, -, -, -, -, -, e0, e1, e2⟩ := block_index t
  have hN : cfg1.N = 32 := N_1
  have ht := t.isLt
  funext y
  have hy0 : (y 0).val < 1 := (y 0).isLt
  have hy1 : (y 1).val < 512 := (y 1).isLt
  have hy2 : (y 2).val < 1024 := (y 2).isLt
  show k1_pay1 (F := Ideal) (iblk1 V c 0 t) (iblk1 V c 1 t) (iblk1 V c 2 t) ((cfg1.win 3).xinj (grid1.coords t) y)
    = attnOf (V c main_v6) (V c main_v7) (V c main_v8) (((cfg1.win 3).blk t).view.emb y)
  refine (payload_at (iblk1 V c 0 t) (iblk1 V c 1 t) (iblk1 V c 2 t) ((cfg1.win 3).xinj (grid1.coords t) y)
    ⟨(y 1).val, hy1⟩ ⟨(y 2).val, hy2⟩ rfl rfl).trans ?_
  refine Eq.trans ?_ (attnOf_at (V c main_v6) (V c main_v7) (V c main_v8) (((cfg1.win 3).blk t).view.emb y)
    ⟨t.val / 4, by omega⟩ ⟨t.val % 4 * 512 + (y 1).val, by omega⟩ ⟨(y 2).val, hy2⟩ ?_ ?_ ?_).symm
  · refine congr (congr (congr (congrArg attnRow ?_) ?_) ?_) rfl
    · exact funext fun d => queryBlock_apply V c t ⟨(y 1).val, hy1⟩ d ⟨t.val / 4, by omega⟩ ⟨t.val % 4 * 512 + (y 1).val, by omega⟩ rfl rfl
    · exact funext fun j => funext fun d => keyBlock_apply V c t j d ⟨t.val / 4, by omega⟩ rfl
    · exact funext fun j => funext fun d => valueBlock_apply V c t j d ⟨t.val / 4, by omega⟩ rfl
  · show win1_3.index t (0 : Fin 3) * 1 + 1 * (y 0).val = t.val / 4; omega
  · show win1_3.index t (1 : Fin 3) * 512 + 1 * (y 1).val = t.val % 4 * 512 + (y 1).val; omega
  · show win1_3.index t (2 : Fin 3) * 1024 + 1 * (y 2).val = (y 2).val; omega

/-- An index of the output array is in point t's block iff each coordinate is in the block's range on its axis. -/
theorem mem_outBlock (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v9).slice (win1_3.rect t)).set ↔ _
  rw [View.set_slice_whole, Rect.mem_set_unit]
  exact Iff.rfl

/-- Every entry (n, s, e) of the output array is in the block of the point of batch n and row block s / 512. -/
theorem outBlocks_cover (i : S8x2048x1024.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hN : cfg1.N = 32 := N_1
  obtain ⟨t, ht⟩ : ∃ t : Fin cfg1.N, t.val = (i 0).val * 4 + (i 1).val / 512 := ⟨⟨(i 0).val * 4 + (i 1).val / 512, by omega⟩, rfl⟩
  obtain ⟨-, -, -, -, -, -, -, -, -, e0, e1, e2⟩ := block_index t
  refine ⟨t, flush1_3 t, ?_⟩
  rw [mem_outBlock]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 1024 ≤ (i 2).val ∧ (i 2).val < win1_3.index t (2 : Fin 3) * 1024 + 1024; omega

/-- THE OUTPUT ARRAY after the call's last point: that function of the three input arrays as the region finds them. -/
theorem out_eq (c : Dev nD) :
    (dat1 (F := Ideal) V c).arrAt 3 cfg1.N = attnOf (V c main_v6) (V c main_v7) (V c main_v8) :=
  (dat1 (F := Ideal) V c).arrAt_eq_of_cover 3 (attnOf (V c main_v6) (V c main_v7) (V c main_v8)) (fun t _ => writeBack_eq V c t) outBlocks_cover

end Attn

/-! ## The result by coordinates -/

/-- The score of query row (n, s) against key row (n, j). -/
def scoreOf (q k : Cert.Spec.A3) (n : Fin 8) (s j : Fin 2048) : EReal := ∑ d : Fin 1024, q n s d * k n j d

/-- The maximum over the keys of query row (n, s)'s scores, folded from -∞. -/
def rowMax (q k : Cert.Spec.A3) (n : Fin 8) (s : Fin 2048) : EReal :=
  (Finset.univ : Finset (Fin 2048)).fold max (Ideal.ofBits .f32 0xFF800000#32) (fun j => scoreOf q k n s j)

/-- THE CALL'S VALUE: entry (n, s, e) of the output array after the call is the exponentials' weighted sum of batch n's
    value rows over the exponentials' sum, for query row (n, s)'s scores less their maximum. -/
theorem arr1_3 (c : Dev nD) (n : Fin 8) (s : Fin 2048) (e : Fin 1024) :
    (dat1 (F := Ideal) V c).arrAt 3 cfg1.N (ix3 n s e)
      = Ideal.div (∑ j : Fin 2048, Ideal.exp (scoreOf (Cert.Spec.arr3 (V c main_v6)) (Cert.Spec.arr3 (V c main_v7)) n s j - rowMax (Cert.Spec.arr3 (V c main_v6)) (Cert.Spec.arr3 (V c main_v7)) n s) * Cert.Spec.arr3 (V c main_v8) n j e)
          (∑ j : Fin 2048, Ideal.exp (scoreOf (Cert.Spec.arr3 (V c main_v6)) (Cert.Spec.arr3 (V c main_v7)) n s j - rowMax (Cert.Spec.arr3 (V c main_v6)) (Cert.Spec.arr3 (V c main_v7)) n s)) := by
  rw [Attn.out_eq]
  rfl

end Cert.KernelIdeal.HandVal

end
-- ==== Proof.KHost.lean ====
/-
  The kernel program's host operations read at an index, over the extended reals. Before the first call: x seen as
  16384 rows (row 2048 n + s of the flat array is row s of batch n); the three weight matrices stacked on axis 0,
  transposed, and converted (the conversion is the identity on extended reals), so that column e, 1024 + e, 2048 + e of
  the fused weight is row e of Wq, Wk, Wv; the three biases laid end to end. After the first call: each of its three
  results seen as 8 batches of 2048 rows.
-/
import proofs.«147454_j31155692765425_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandVal

open Idealize.ShloMosaic Idealize.ShloMosaic.TcCoe Idealize.ShloMosaic.ValueIdx Idealize.SL.Sem
open Cert.KernelIdeal Cert.KernelIdeal.Gen

/-! # The layout operations at an index, for any element type -/

section Layout
variable {α : Type}

/-- The flat view of a batched array: row 2048 n + s is row s of batch n. -/
theorem flat_apply (x : S8x2048x1024.Idx → α) (n : Fin 8) (s : Fin 2048) (d : Fin 1024) :
    shapeCast S16384x1024 x shapeCasts_S8x2048x1024_S16384x1024 (ix2 (⟨2048 * n.val + s.val, by omega⟩ : Fin 16384) d)
      = x (ix3 n s d) := by
  refine shapeCast_apply x _ _ _ ?_
  rw [Shape.rowMajor_val_three, Shape.rowMajor_val_two]
  show (n.val * 2048 + s.val) * 1024 + d.val = (2048 * n.val + s.val) * 1024 + d.val
  omega

/-- The batched view of a flat array: row s of batch n is row 2048 n + s. -/
theorem batched_apply (x : S16384x1024.Idx → α) (n : Fin 8) (s : Fin 2048) (d : Fin 1024) :
    shapeCast S8x2048x1024 x shapeCasts_S16384x1024_S8x2048x1024 (ix3 n s d)
      = x (ix2 (⟨2048 * n.val + s.val, by omega⟩ : Fin 16384) d) := by
  refine shapeCast_apply x _ _ _ ?_
  rw [Shape.rowMajor_val_three, Shape.rowMajor_val_two]
  show (2048 * n.val + s.val) * 1024 + d.val = (n.val * 2048 + s.val) * 1024 + d.val
  omega

/-- The transposed matrix at (d, e) is the matrix at (e, d). -/
theorem transposed_apply (x : S3072x1024.Idx → α) (d : Fin 1024) (e : Fin 3072) :
    transpose S1024x3072 [1, 0] x transposes_S3072x1024_S1024x3072_1_0 (ix2 d e) = x (ix2 e d) := by
  refine transpose_apply _ x _ _ _ ?_
  intro b
  match b with
  | ⟨0, _⟩ => rfl
  | ⟨1, _⟩ => rfl

/-- Three 1024 x 1024 matrices stacked on axis 0: row e of the stack is row e of the first, … -/
theorem stack_apply_0 (A B C : S1024x1024.Idx → α) (e d : Fin 1024) :
    concatenate S3072x1024 0 [⟨S1024x1024, A⟩, ⟨S1024x1024, B⟩, ⟨S1024x1024, C⟩]
        concatenates_S1024x1024_S1024x1024_S1024x1024_S3072x1024_d0 (ix2 (⟨e.val, by omega⟩ : Fin 3072) d)
      = A (ix2 e d) := by
  refine concatenate_apply_piece (0 : Fin S3072x1024.rank) _ _ _ 0 (by simp) S1024x1024 A rfl rfl 0 (by rfl) (ix2 e d) ?_ ?_
  · intro b hb
    match b, hb with
    | ⟨0, _⟩, hb => exact absurd rfl hb
    | ⟨1, _⟩, _ => rfl
  · exact Nat.zero_add _

/-- … row 1024 + e is row e of the second, … -/
theorem stack_apply_1 (A B C : S1024x1024.Idx → α) (e d : Fin 1024) :
    concatenate S3072x1024 0 [⟨S1024x1024, A⟩, ⟨S1024x1024, B⟩, ⟨S1024x1024, C⟩]
        concatenates_S1024x1024_S1024x1024_S1024x1024_S3072x1024_d0 (ix2 (⟨1024 + e.val, by omega⟩ : Fin 3072) d)
      = B (ix2 e d) := by
  refine concatenate_apply_piece (0 : Fin S3072x1024.rank) _ _ _ 1 (by simp) S1024x1024 B rfl rfl 1024 (by rfl) (ix2 e d) ?_ ?_
  · intro b hb
    match b, hb with
    | ⟨0, _⟩, hb => exact absurd rfl hb
    | ⟨1, _⟩, _ => rfl
  · rfl

/-- … and row 2048 + e is row e of the third. -/
theorem stack_apply_2 (A B C : S1024x1024.Idx → α) (e d : Fin 1024) :
    concatenate S3072x1024 0 [⟨S1024x1024, A⟩, ⟨S1024x1024, B⟩, ⟨S1024x1024, C⟩]
        concatenates_S1024x1024_S1024x1024_S1024x1024_S3072x1024_d0 (ix2 (⟨2048 + e.val, by omega⟩ : Fin 3072) d)
      = C (ix2 e d) := by
  refine concatenate_apply_piece (0 : Fin S3072x1024.rank) _ _ _ 2 (by simp) S1024x1024 C rfl rfl 2048 (by rfl) (ix2 e d) ?_ ?_
  · intro b hb
    match b, hb with
    | ⟨0, _⟩, hb => exact absurd rfl hb
    | ⟨1, _⟩, _ => rfl
  · rfl

/-- Three vectors of 1024 entries laid end to end: entry e is entry e of the first, … -/
theorem join_apply_0 (A B C : S1024.Idx → α) (e : Fin 1024) :
    concatenate S3072 0 [⟨S1024, A⟩, ⟨S1024, B⟩, ⟨S1024, C⟩]
        concatenates_S1024_S1024_S1024_S3072_d0 (ix1 (⟨e.val, by omega⟩ : Fin 3072))
      = A (ix1 e) := by
  refine concatenate_apply_piece (0 : Fin S3072.rank) _ _ _ 0 (by simp) S1024 A rfl rfl 0 (by rfl) (ix1 e) ?_ ?_
  · intro b hb
    match b, hb with
    | ⟨0, _⟩, hb => exact absurd rfl hb
  · exact Nat.zero_add _

/-- … entry 1024 + e is entry e of the second, … -/
theorem join_apply_1 (A B C : S1024.Idx → α) (e : Fin 1024) :
    concatenate S3072 0 [⟨S1024, A⟩, ⟨S1024, B⟩, ⟨S1024, C⟩]
        concatenates_S1024_S1024_S1024_S3072_d0 (ix1 (⟨1024 + e.val, by omega⟩ : Fin 3072))
      = B (ix1 e) := by
  refine concatenate_apply_piece (0 : Fin S3072.rank) _ _ _ 1 (by simp) S1024 B rfl rfl 1024 (by rfl) (ix1 e) ?_ ?_
  · intro b hb
    match b, hb with
    | ⟨0, _⟩, hb => exact absurd rfl hb
  · rfl

/-- … and entry 2048 + e is entry e of the third. -/
theorem join_apply_2 (A B C : S1024.Idx → α) (e : Fin 1024) :
    concatenate S3072 0 [⟨S1024, A⟩, ⟨S1024, B⟩, ⟨S1024, C⟩]
        concatenates_S1024_S1024_S1024_S3072_d0 (ix1 (⟨2048 + e.val, by omega⟩ : Fin 3072))
      = C (ix1 e) := by
  refine concatenate_apply_piece (0 : Fin S3072.rank) _ _ _ 2 (by simp) S1024 C rfl rfl 2048 (by rfl) (ix1 e) ?_ ?_
  · intro b hb
    match b, hb with
    | ⟨0, _⟩, hb => exact absurd rfl hb
  · rfl

end Layout

/-! # The host operations before the first call, at an index -/

section Host

variable (U : Valuation τ sig (Elt Ideal))

/-- Row 2048 n + s of the flat x is row s of batch n of x. -/
theorem host0_v0 (n : Fin 8) (s : Fin 2048) (d : Fin 1024) :
    (StableHlo.after hostOps0 U (Proc.devRef .tc main_v0) : S16384x1024.Idx → EReal) (ix2 (⟨2048 * n.val + s.val, by omega⟩ : Fin 16384) d)
      = (U (Proc.devRef .tc main_arg0) : S8x2048x1024.Idx → EReal) (ix3 n s d) := by
  have e : (StableHlo.after hostOps0 U (Proc.devRef .tc main_v0) : S16384x1024.Idx → EReal)
      = shapeCast S16384x1024 (U (Proc.devRef .tc main_arg0) : S8x2048x1024.Idx → EReal) shapeCasts_S8x2048x1024_S16384x1024 := by
    after_results; rfl
  rw [e]; exact flat_apply _ n s d

/-- The fused weight the first call reads, as a term of the three weight matrices. -/
theorem host0_v3_eq :
    (StableHlo.after hostOps0 U (Proc.devRef .tc main_v3) : S1024x3072.Idx → EReal)
      = truncf (F := Ideal) .bf16 (transpose S1024x3072 [1, 0]
          (concatenate S3072x1024 0 [⟨S1024x1024, (U (Proc.devRef .tc main_arg1) : S1024x1024.Idx → EReal)⟩,
            ⟨S1024x1024, (U (Proc.devRef .tc main_arg3) : S1024x1024.Idx → EReal)⟩,
            ⟨S1024x1024, (U (Proc.devRef .tc main_arg5) : S1024x1024.Idx → EReal)⟩]
            concatenates_S1024x1024_S1024x1024_S1024x1024_S3072x1024_d0)
          transposes_S3072x1024_S1024x3072_1_0) bitsLt_bf16_f32 := by
  after_results; rfl

/-- Column e of the fused weight is row e of Wq. -/
theorem host0_v3_q (d e : Fin 1024) :
    (StableHlo.after hostOps0 U (Proc.devRef .tc main_v3) : S1024x3072.Idx → EReal) (ix2 d (⟨e.val, by omega⟩ : Fin 3072))
      = (U (Proc.devRef .tc main_arg1) : S1024x1024.Idx → EReal) (ix2 e d) := by
  rw [host0_v3_eq U, truncf_apply, transposed_apply]; exact stack_apply_0 _ _ _ e d

/-- Column 1024 + e of the fused weight is row e of Wk. -/
theorem host0_v3_k (d e : Fin 1024) :
    (StableHlo.after hostOps0 U (Proc.devRef .tc main_v3) : S1024x3072.Idx → EReal) (ix2 d (⟨1024 + e.val, by omega⟩ : Fin 3072))
      = (U (Proc.devRef .tc main_arg3) : S1024x1024.Idx → EReal) (ix2 e d) := by
  rw [host0_v3_eq U, truncf_apply, transposed_apply]; exact stack_apply_1 _ _ _ e d

/-- Column 2048 + e of the fused weight is row e of Wv. -/
theorem host0_v3_v (d e : Fin 1024) :
    (StableHlo.after hostOps0 U (Proc.devRef .tc main_v3) : S1024x3072.Idx → EReal) (ix2 d (⟨2048 + e.val, by omega⟩ : Fin 3072))
      = (U (Proc.devRef .tc main_arg5) : S1024x1024.Idx → EReal) (ix2 e d) := by
  rw [host0_v3_eq U, truncf_apply, transposed_apply]; exact stack_apply_2 _ _ _ e d

/-- The fused bias the first call reads, as a term of the three biases. -/
theorem host0_v4_eq :
    (StableHlo.after hostOps0 U (Proc.devRef .tc main_v4) : S3072.Idx → EReal)
      = concatenate S3072 0 [⟨S1024, (U (Proc.devRef .tc main_arg2) : S1024.Idx → EReal)⟩,
            ⟨S1024, (U (Proc.devRef .tc main_arg4) : S1024.Idx → EReal)⟩,
            ⟨S1024, (U (Proc.devRef .tc main_arg6) : S1024.Idx → EReal)⟩]
            concatenates_S1024_S1024_S1024_S3072_d0 := by
  after_results; rfl

/-- Entry e of the fused bias is entry e of bq. -/
theorem host0_v4_q (e : Fin 1024) :
    (StableHlo.after hostOps0 U (Proc.devRef .tc main_v4) : S3072.Idx → EReal) (ix1 (⟨e.val, by omega⟩ : Fin 3072))
      = (U (Proc.devRef .tc main_arg2) : S1024.Idx → EReal) (ix1 e) := by
  rw [host0_v4_eq U]; exact join_apply_0 _ _ _ e

/-- Entry 1024 + e of the fused bias is entry e of bk. -/
theorem host0_v4_k (e : Fin 1024) :
    (StableHlo.after hostOps0 U (Proc.devRef .tc main_v4) : S3072.Idx → EReal) (ix1 (⟨1024 + e.val, by omega⟩ : Fin 3072))
      = (U (Proc.devRef .tc main_arg4) : S1024.Idx → EReal) (ix1 e) := by
  rw [host0_v4_eq U]; exact join_apply_1 _ _ _ e

/-- Entry 2048 + e of the fused bias is entry e of bv. -/
theorem host0_v4_v (e : Fin 1024) :
    (StableHlo.after hostOps0 U (Proc.devRef .tc main_v4) : S3072.Idx → EReal) (ix1 (⟨2048 + e.val, by omega⟩ : Fin 3072))
      = (U (Proc.devRef .tc main_arg6) : S1024.Idx → EReal) (ix1 e) := by
  rw [host0_v4_eq U]; exact join_apply_2 _ _ _ e

/-! # The host operations between the two calls, at an index -/

/-- Row s of batch n of q is row 2048 n + s of the first call's first result. -/
theorem host1_v6 (n : Fin 8) (s : Fin 2048) (d : Fin 1024) :
    (StableHlo.after hostOps1 U (Proc.devRef .tc main_v6) : S8x2048x1024.Idx → EReal) (ix3 n s d)
      = (U (Proc.devRef .tc main_v5_0) : S16384x1024.Idx → EReal) (ix2 (⟨2048 * n.val + s.val, by omega⟩ : Fin 16384) d) := by
  have e : (StableHlo.after hostOps1 U (Proc.devRef .tc main_v6) : S8x2048x1024.Idx → EReal)
      = shapeCast S8x2048x1024 (U (Proc.devRef .tc main_v5_0) : S16384x1024.Idx → EReal) shapeCasts_S16384x1024_S8x2048x1024 := by
    after_results; rfl
  rw [e]; exact batched_apply _ n s d

/-- Row s of batch n of k is row 2048 n + s of the first call's second result. -/
theorem host1_v7 (n : Fin 8) (s : Fin 2048) (d : Fin 1024) :
    (StableHlo.after hostOps1 U (Proc.devRef .tc main_v7) : S8x2048x1024.Idx → EReal) (ix3 n s d)
      = (U (Proc.devRef .tc main_v5_1) : S16384x1024.Idx → EReal) (ix2 (⟨2048 * n.val + s.val, by omega⟩ : Fin 16384) d) := by
  have e : (StableHlo.after hostOps1 U (Proc.devRef .tc main_v7) : S8x2048x1024.Idx → EReal)
      = shapeCast S8x2048x1024 (U (Proc.devRef .tc main_v5_1) : S16384x1024.Idx → EReal) shapeCasts_S16384x1024_S8x2048x1024 := by
    after_results; rfl
  rw [e]; exact batched_apply _ n s d

/-- Row s of batch n of v is row 2048 n + s of the first call's third result. -/
theorem host1_v8 (n : Fin 8) (s : Fin 2048) (d : Fin 1024) :
    (StableHlo.after hostOps1 U (Proc.devRef .tc main_v8) : S8x2048x1024.Idx → EReal) (ix3 n s d)
      = (U (Proc.devRef .tc main_v5_2) : S16384x1024.Idx → EReal) (ix2 (⟨2048 * n.val + s.val, by omega⟩ : Fin 16384) d) := by
  have e : (StableHlo.after hostOps1 U (Proc.devRef .tc main_v8) : S8x2048x1024.Idx → EReal)
      = shapeCast S8x2048x1024 (U (Proc.devRef .tc main_v5_2) : S16384x1024.Idx → EReal) shapeCasts_S16384x1024_S8x2048x1024 := by
    after_results; rfl
  rw [e]; exact batched_apply _ n s d

end Host

end Cert.KernelIdeal.HandVal

end
-- ==== Proof.SpecMath.lean ====
/-
  The extended-real algebra behind the comparison of the two attention programs.

  An extended real is "real" when it is the image of a real number; sums, products and finite sums of reals are real,
  so the three projections of a real input are real, and so are both programs' scores. The three float literals the
  programs spell denote 1/32, 1024 (whose square root is 32) and −∞.

  On real scores the two programs agree. First, (q·(1/32))·k summed over the feature axis equals (∑ q·k)/32: the
  constant factor moves across the finite sum by distributivity over the reals. Second, for real scores t_j, real
  values v_j and any two real shifts m, m',
      (∑_j exp(t_j − m)·v_j) / (∑_j exp(t_j − m)) = ∑_j (exp(t_j − m') / ∑_j' exp(t_j' − m'))·v_j,
  because exp(t − m) = exp(m' − m)·exp(t − m'), the sums of exponentials over a nonempty index set are positive reals,
  and the positive factor exp(m' − m) cancels between numerator and denominator. The running maximum, folded from −∞
  over real scores, is itself real, so it is an admissible shift.
-/
import proofs.«147454_j31155692765425_2_alg».proof.Proof.Spec

noncomputable section

namespace Cert.Spec

open Idealize.ShloMosaic

/-! ### Real extended reals -/

theorem isReal_coe (r : ℝ) : IsReal (r : EReal) := ⟨r, rfl⟩

theorem isReal_add {a b : EReal} (ha : IsReal a) (hb : IsReal b) : IsReal (a + b) := by
  obtain ⟨x, rfl⟩ := ha
  obtain ⟨y, rfl⟩ := hb
  exact ⟨x + y, (EReal.coe_add x y).symm⟩

theorem isReal_mul {a b : EReal} (ha : IsReal a) (hb : IsReal b) : IsReal (a * b) := by
  obtain ⟨x, rfl⟩ := ha
  obtain ⟨y, rfl⟩ := hb
  exact ⟨x * y, (EReal.coe_mul x y).symm⟩

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact isReal_add (h a (Finset.mem_insert_self a s))
      (ih (fun i hi => h i (Finset.mem_insert_of_mem hi)))

theorem proj_real {x : A3} {W : Fin 1024 → Fin 1024 → EReal} {b : Fin 1024 → EReal} (hx : Real3 x)
    (hW : ∀ e d, IsReal (W e d)) (hb : ∀ e, IsReal (b e)) : Real3 (proj x W b) := by
  intro n s e
  exact isReal_add (isReal_sum _ _ (fun d _ => isReal_mul (hx n s d) (hW e d))) (hb e)

/-! ### The three literals -/

/-- The f32 pattern of 0.03125 denotes 1/32. -/
theorem sc_val : Ideal.ofBits .f32 0x3D000000#32 = ((1 / 32 : ℝ) : EReal) := by
  simp [Ideal.ofBits, Ideal.ieee, -EReal.coe_mul]; norm_num

/-- The f32 pattern of 1024.0 denotes 1024. -/
theorem ofBits_1024 : Ideal.ofBits .f32 0x44800000#32 = ((1024 : ℝ) : EReal) := by
  simp [Ideal.ofBits, Ideal.ieee, -EReal.coe_mul]; norm_num

/-- The square root of the f32 pattern of 1024.0 is 32. -/
theorem dv_val : Ideal.sqrt (Ideal.ofBits .f32 0x44800000#32) = ((32 : ℝ) : EReal) := by
  rw [ofBits_1024, Ideal.sqrt_coe, if_neg (by norm_num)]
  have h : Real.sqrt 1024 = 32 := by
    rw [show (1024 : ℝ) = 32 ^ 2 by norm_num]
    exact Real.sqrt_sq (by norm_num)
  rw [h]

/-- The f32 pattern with sign set, all-ones exponent and zero significand denotes −∞. -/
theorem neg_inf_val : Ideal.ofBits .f32 0xFF800000#32 = (⊥ : EReal) := by
  simp [Ideal.ofBits, Ideal.ieee]

/-! ### The scores are real -/

theorem kScore_real {sc : EReal} (hsc : IsReal sc) {q k : A3} (hq : Real3 q) (hk : Real3 k) (n : Fin 8)
    (s j : Fin 2048) : IsReal (kScore sc q k n s j) :=
  isReal_sum _ _ (fun d _ => isReal_mul (isReal_mul (hq n s d) hsc) (hk n j d))

theorem rScore_real {dv : EReal} (hdv : dv = ((32 : ℝ) : EReal)) {q k : A3} (hq : Real3 q) (hk : Real3 k)
    (n : Fin 8) (s j : Fin 2048) : IsReal (rScore dv q k n s j) := by
  subst hdv
  unfold rScore
  rw [Ideal.div_coe (by norm_num)]
  exact isReal_mul (isReal_sum _ _ (fun d _ => isReal_mul (hq n s d) (hk n j d))) (isReal_coe _)

/-! ### The running maximum is real -/

theorem max_bot_real {a : EReal} (ha : IsReal a) : IsReal (max (⊥ : EReal) a) := by
  rw [max_eq_right bot_le]; exact ha

theorem isReal_max {a b : EReal} (ha : IsReal a) (hb : IsReal b) : IsReal (max a b) := by
  rcases max_choice a b with h | h <;> rw [h] <;> assumption

/-- Folding max from −∞ over real entries gives −∞ on the empty set and a real number otherwise. -/
theorem fold_max_aux {ι : Type} [DecidableEq ι] (S : ι → EReal) (hS : ∀ j, IsReal (S j)) (s : Finset ι) :
    (s = ∅ ∧ s.fold max (⊥ : EReal) S = ⊥) ∨ IsReal (s.fold max (⊥ : EReal) S) := by
  induction s using Finset.induction_on with
  | empty => exact Or.inl ⟨rfl, Finset.fold_empty⟩
  | insert a s ha ih =>
    right
    rw [Finset.fold_insert ha]
    rcases ih with ⟨_, h⟩ | h
    · rw [h, max_eq_left bot_le]; exact hS a
    · exact isReal_max (hS a) h

theorem fold_max_real (S : Fin 2048 → EReal) (hS : ∀ j, IsReal (S j)) :
    IsReal ((Finset.univ : Finset (Fin 2048)).fold max (⊥ : EReal) S) := by
  rcases fold_max_aux S hS Finset.univ with ⟨h, _⟩ | h
  · exact absurd h (Finset.univ_nonempty (α := Fin 2048)).ne_empty
  · exact h

/-! ### The softmax-weighted sum does not depend on the shift -/

/-- Over the reals: the weighted sum over the normaliser at shift m equals the sum of normalised weights at m'. -/
theorem real_softmax_shift {ι : Type} [Fintype ι] [Nonempty ι] (t v : ι → ℝ) (m m' : ℝ) :
    (∑ j, Real.exp (t j - m) * v j) * (1 / ∑ j, Real.exp (t j - m))
      = ∑ j, Real.exp (t j - m') * (1 / ∑ j', Real.exp (t j' - m')) * v j := by
  have hc : ∀ j, Real.exp (t j - m) = Real.exp (m' - m) * Real.exp (t j - m') := by
    intro j; rw [← Real.exp_add]; congr 1; ring
  have hpos : 0 < ∑ j, Real.exp (t j - m') :=
    Finset.sum_pos (fun j _ => Real.exp_pos _) Finset.univ_nonempty
  have hcpos : 0 < Real.exp (m' - m) := Real.exp_pos _
  have hR : ∑ j, Real.exp (t j - m') * (1 / ∑ j', Real.exp (t j' - m')) * v j
      = (∑ j, Real.exp (t j - m') * v j) * (1 / ∑ j', Real.exp (t j' - m')) := by
    rw [Finset.sum_mul]; exact Finset.sum_congr rfl (fun j _ => by ring)
  have hA : ∑ j, Real.exp (t j - m) * v j = Real.exp (m' - m) * ∑ j, Real.exp (t j - m') * v j := by
    rw [Finset.mul_sum]; exact Finset.sum_congr rfl (fun j _ => by rw [hc]; ring)
  have hL : ∑ j, Real.exp (t j - m) = Real.exp (m' - m) * ∑ j, Real.exp (t j - m') := by
    rw [Finset.mul_sum]; exact Finset.sum_congr rfl (fun j _ => hc j)
  rw [hR, hA, hL]
  field_simp

/-- The same over the extended reals, for real scores, values and shifts. -/
theorem ereal_softmax_shift {ι : Type} [Fintype ι] [Nonempty ι] (t v : ι → ℝ) (m m' : ℝ) :
    Ideal.div (∑ j, Ideal.exp ((t j : EReal) - (m : EReal)) * (v j : EReal))
        (∑ j, Ideal.exp ((t j : EReal) - (m : EReal)))
      = ∑ j, Ideal.div (Ideal.exp ((t j : EReal) - (m' : EReal)))
          (∑ j', Ideal.exp ((t j' : EReal) - (m' : EReal))) * (v j : EReal) := by
  have hexp : ∀ (a b : ℝ), Ideal.exp ((a : EReal) - (b : EReal)) = ((Real.exp (a - b) : ℝ) : EReal) := by
    intro a b; rw [← EReal.coe_sub, Ideal.exp_coe]
  have hpos : ∀ c : ℝ, (∑ j, Real.exp (t j - c)) ≠ 0 := fun c =>
    (Finset.sum_pos (fun j _ => Real.exp_pos _) Finset.univ_nonempty).ne'
  simp only [hexp, ← EReal.coe_mul, ← coe_sum]
  rw [Ideal.div_coe (hpos m)]
  simp only [Ideal.div_coe (hpos m'), ← EReal.coe_mul, ← coe_sum]
  rw [real_softmax_shift t v m m']

/-! ### The two programs' results agree on real inputs -/

theorem kOut_eq_rOut {sc dv : EReal} (hsc : sc = ((1 / 32 : ℝ) : EReal)) (hdv : dv = ((32 : ℝ) : EReal))
    {q k v : A3} (hq : Real3 q) (hk : Real3 k) (hv : Real3 v) {M M' : Fin 8 → Fin 2048 → EReal}
    (hM : ∀ n s, IsReal (M n s)) (hM' : ∀ n s, IsReal (M' n s)) : kOut sc q k v M = rOut dv q k v M' := by
  subst hsc hdv
  have hq' : ∀ n s d, ∃ r : ℝ, q n s d = (r : EReal) := hq
  have hk' : ∀ n s d, ∃ r : ℝ, k n s d = (r : EReal) := hk
  have hv' : ∀ n s d, ∃ r : ℝ, v n s d = (r : EReal) := hv
  have hM₁ : ∀ n s, ∃ r : ℝ, M n s = (r : EReal) := hM
  have hM₂ : ∀ n s, ∃ r : ℝ, M' n s = (r : EReal) := hM'
  choose qr hqr using hq'
  choose kr hkr using hk'
  choose vr hvr using hv'
  choose m hm using hM₁
  choose m' hm' using hM₂
  funext n s e
  have hks : ∀ j, kScore ((1 / 32 : ℝ) : EReal) q k n s j
      = (((∑ d, qr n s d * kr n j d) * (1 / 32) : ℝ) : EReal) := by
    intro j
    unfold kScore
    simp only [hqr, hkr, ← EReal.coe_mul, ← coe_sum]
    congr 1
    rw [Finset.sum_mul]
    exact Finset.sum_congr rfl (fun d _ => by ring)
  have hrs : ∀ j, rScore ((32 : ℝ) : EReal) q k n s j
      = (((∑ d, qr n s d * kr n j d) * (1 / 32) : ℝ) : EReal) := by
    intro j
    unfold rScore
    rw [Ideal.div_coe (by norm_num)]
    simp only [hqr, hkr, ← EReal.coe_mul, ← coe_sum]
  show Ideal.div (∑ j : Fin 2048, Ideal.exp (kScore _ q k n s j - M n s) * v n j e)
      (∑ j : Fin 2048, Ideal.exp (kScore _ q k n s j - M n s))
    = ∑ j : Fin 2048, Ideal.div (Ideal.exp (rScore _ q k n s j - M' n s))
      (∑ j' : Fin 2048, Ideal.exp (rScore _ q k n s j' - M' n s)) * v n j e
  simp only [hks, hrs, hm, hm', hvr]
  exact ereal_softmax_shift (fun j => (∑ d, qr n s d * kr n j d) * (1 / 32)) (fun j => vr n j e) (m n s) (m' n s)

end Cert.Spec

end
-- ==== Proof.KAsm.lean ====
/-
  The kernel program's result as the specification's kernel-side function of the seven argument arrays, over the extended
  reals. The result array is what the second call's region leaves; that is the softmax-weighted sum of value rows of the
  second call's three input arrays, which are the first call's three outputs seen as 8 batches of 2048 rows; those are
  the fused projection x · W + b of the flat x against the stacked, transposed weights and the joined biases (the first
  third of the columns scaled by 1/32), which read entry by entry are the three projections q, k, v of the argument
  arrays. The row maximum subtracted before the exponential, folded from −∞ over real scores, is a real number.
-/
import proofs.«147454_j31155692765425_2_alg».proof.Proof.KRun
import proofs.«147454_j31155692765425_2_alg».proof.Proof.KVal0
import proofs.«147454_j31155692765425_2_alg».proof.Proof.KVal1
import proofs.«147454_j31155692765425_2_alg».proof.Proof.KHost
import proofs.«147454_j31155692765425_2_alg».proof.Proof.SpecMath
import proofs.«147454_j31155692765425_2_alg».proof.Proof.SpecIdx

set_option maxRecDepth 16384

noncomputable section

namespace Cert.KernelIdeal.HandVal

open Idealize.ShloMosaic Idealize.ShloMosaic.TcCoe Idealize.ShloMosaic.ValueIdx
open Idealize.SL Idealize.SL.Sem
open Cert.KernelIdeal Cert.KernelIdeal.Gen Cert.KernelIdeal.Hand

/-! # A reshaped projection by coordinates, over abstract arrays -/

/-- A reshaped, projected and scaled array, by coordinates: the reshape's row is 2048 n + s, the projection reads its
    weight column and bias entry at f e, and those are the argument arrays' entries. -/
theorem arr3_scaled {A : (⟨3, ![8, 2048, 1024]⟩ : Shape).Idx → EReal} {B : (⟨2, ![16384, 1024]⟩ : Shape).Idx → EReal}
    {x : (⟨2, ![16384, 1024]⟩ : Shape).Idx → EReal} {w : (⟨2, ![1024, 3072]⟩ : Shape).Idx → EReal}
    {b : (⟨1, ![3072]⟩ : Shape).Idx → EReal} {sc : EReal}
    {a0 : (⟨3, ![8, 2048, 1024]⟩ : Shape).Idx → EReal} {a1 : (⟨2, ![1024, 1024]⟩ : Shape).Idx → EReal}
    {a2 : (⟨1, ![1024]⟩ : Shape).Idx → EReal}
    (g : Fin 8 → Fin 2048 → Fin 16384) (f : Fin 1024 → Fin 3072)
    (hA : ∀ n s d, A (ix3 n s d) = B (ix2 (g n s) d))
    (hB : ∀ r e, B (ix2 r e) = ((∑ d : Fin 1024, x (ix2 r d) * w (ix2 d (f e))) + b (ix1 (f e))) * sc)
    (hx : ∀ n s d, x (ix2 (g n s) d) = a0 (ix3 n s d))
    (hw : ∀ d e, w (ix2 d (f e)) = a1 (ix2 e d))
    (hb : ∀ e, b (ix1 (f e)) = a2 (ix1 e)) :
    Cert.Spec.arr3 A = fun n s e => Cert.Spec.qOf a0 a1 a2 n s e * sc := by
  funext n s e
  unfold Cert.Spec.arr3 Cert.Spec.qOf Cert.Spec.proj Cert.Spec.arr3 Cert.Spec.mat Cert.Spec.vec
  rw [hA, hB, hb]
  refine congrArg (fun t => (t + a2 (ix1 e)) * sc) (Finset.sum_congr rfl fun d _ => ?_)
  rw [hx, hw]

/-- The same without the scale. -/
theorem arr3_plain {A : (⟨3, ![8, 2048, 1024]⟩ : Shape).Idx → EReal} {B : (⟨2, ![16384, 1024]⟩ : Shape).Idx → EReal}
    {x : (⟨2, ![16384, 1024]⟩ : Shape).Idx → EReal} {w : (⟨2, ![1024, 3072]⟩ : Shape).Idx → EReal}
    {b : (⟨1, ![3072]⟩ : Shape).Idx → EReal}
    {a0 : (⟨3, ![8, 2048, 1024]⟩ : Shape).Idx → EReal} {a1 : (⟨2, ![1024, 1024]⟩ : Shape).Idx → EReal}
    {a2 : (⟨1, ![1024]⟩ : Shape).Idx → EReal}
    (g : Fin 8 → Fin 2048 → Fin 16384) (f : Fin 1024 → Fin 3072)
    (hA : ∀ n s d, A (ix3 n s d) = B (ix2 (g n s) d))
    (hB : ∀ r e, B (ix2 r e) = (∑ d : Fin 1024, x (ix2 r d) * w (ix2 d (f e))) + b (ix1 (f e)))
    (hx : ∀ n s d, x (ix2 (g n s) d) = a0 (ix3 n s d))
    (hw : ∀ d e, w (ix2 d (f e)) = a1 (ix2 e d))
    (hb : ∀ e, b (ix1 (f e)) = a2 (ix1 e)) :
    Cert.Spec.arr3 A = Cert.Spec.qOf a0 a1 a2 := by
  funext n s e
  unfold Cert.Spec.arr3 Cert.Spec.qOf Cert.Spec.proj Cert.Spec.arr3 Cert.Spec.mat Cert.Spec.vec
  rw [hA, hB, hb]
  refine congrArg (fun t => t + a2 (ix1 e)) (Finset.sum_congr rfl fun d _ => ?_)
  rw [hx, hw]

/-! # The assembled arrays -/

section Assembly

variable (m : (ℓ : Loc nD τ sig) → Buf (Elt Ideal) ℓ) (ρ : Dev nD → PrngReg) (c : Dev nD)

set_option quotPrecheck false in
local notation "a₀" => m ((c : Thread nD τ).loc main_arg0)
set_option quotPrecheck false in
local notation "a₁" => m ((c : Thread nD τ).loc main_arg1)
set_option quotPrecheck false in
local notation "a₂" => m ((c : Thread nD τ).loc main_arg2)
set_option quotPrecheck false in
local notation "a₃" => m ((c : Thread nD τ).loc main_arg3)
set_option quotPrecheck false in
local notation "a₄" => m ((c : Thread nD τ).loc main_arg4)
set_option quotPrecheck false in
local notation "a₅" => m ((c : Thread nD τ).loc main_arg5)
set_option quotPrecheck false in
local notation "a₆" => m ((c : Thread nD τ).loc main_arg6)
set_option quotPrecheck false in
local notation "𝕤" => (Ideal.ofBits .f32 0x3D000000#32 : EReal)

/-- The second call's query array is the scaled projection q of the arguments. -/
theorem v6_eq : Cert.Spec.arr3 (Hand.V3 m ρ c main_v6) = fun n s e => Cert.Spec.qOf a₀ a₁ a₂ n s e * 𝕤 :=
  arr3_scaled (B := Hand.W2 m ρ c (Proc.devRef .tc main_v5_0)) (x := Hand.V1 m ρ c main_v0) (w := Hand.V1 m ρ c main_v3)
    (b := Hand.V1 m ρ c main_v4) (fun n s => ⟨2048 * n.val + s.val, by omega⟩) (fun e => ⟨e.val, by omega⟩)
    (fun n s d => host1_v6 (Hand.W2 m ρ c) n s d)
    (fun r e => (congrFun (Hand.W2_arr m ρ c 3) (ix2 r e)).trans (arr0_3 (Hand.V1 m ρ) c r e))
    (fun n s d => host0_v0 (Hand.W0 m ρ c) n s d)
    (fun d e => host0_v3_q (Hand.W0 m ρ c) d e)
    (fun e => host0_v4_q (Hand.W0 m ρ c) e)

/-- Its key array is the projection k. -/
theorem v7_eq : Cert.Spec.arr3 (Hand.V3 m ρ c main_v7) = Cert.Spec.qOf a₀ a₃ a₄ :=
  arr3_plain (B := Hand.W2 m ρ c (Proc.devRef .tc main_v5_1)) (x := Hand.V1 m ρ c main_v0) (w := Hand.V1 m ρ c main_v3)
    (b := Hand.V1 m ρ c main_v4) (fun n s => ⟨2048 * n.val + s.val, by omega⟩) (fun e => ⟨1024 + e.val, by omega⟩)
    (fun n s d => host1_v7 (Hand.W2 m ρ c) n s d)
    (fun r e => (congrFun (Hand.W2_arr m ρ c 4) (ix2 r e)).trans (arr0_4 (Hand.V1 m ρ) c r e))
    (fun n s d => host0_v0 (Hand.W0 m ρ c) n s d)
    (fun d e => host0_v3_k (Hand.W0 m ρ c) d e)
    (fun e => host0_v4_k (Hand.W0 m ρ c) e)

/-- Its value array is the projection v. -/
theorem v8_eq : Cert.Spec.arr3 (Hand.V3 m ρ c main_v8) = Cert.Spec.qOf a₀ a₅ a₆ :=
  arr3_plain (B := Hand.W2 m ρ c (Proc.devRef .tc main_v5_2)) (x := Hand.V1 m ρ c main_v0) (w := Hand.V1 m ρ c main_v3)
    (b := Hand.V1 m ρ c main_v4) (fun n s => ⟨2048 * n.val + s.val, by omega⟩) (fun e => ⟨2048 + e.val, by omega⟩)
    (fun n s d => host1_v8 (Hand.W2 m ρ c) n s d)
    (fun r e => (congrFun (Hand.W2_arr m ρ c 5) (ix2 r e)).trans (arr0_5 (Hand.V1 m ρ) c r e))
    (fun n s d => host0_v0 (Hand.W0 m ρ c) n s d)
    (fun d e => host0_v3_v (Hand.W0 m ρ c) d e)
    (fun e => host0_v4_v (Hand.W0 m ρ c) e)

/-- The row maximum the kernel subtracts at (n, s): the maximum, from −∞, of row (n, s)'s scaled scores. -/
def MK : Fin 8 → Fin 2048 → EReal :=
  fun n s => rowMax (fun n s d => Cert.Spec.qOf a₀ a₁ a₂ n s d * 𝕤) (Cert.Spec.qOf a₀ a₃ a₄) n s

/-- The kernel's result array at (n, s, e) is the specification's kernel-side function of the seven arguments, with the
    kernel's own row maximum. -/
theorem kernel_result (n : Fin 8) (s : Fin 2048) (e : Fin 1024) :
    Hand.W4 (F := Ideal) m ρ c (Proc.devRef .tc main_v9) (ix3 n s e)
      = Cert.Spec.kOut 𝕤 (Cert.Spec.qOf a₀ a₁ a₂) (Cert.Spec.qOf a₀ a₃ a₄) (Cert.Spec.qOf a₀ a₅ a₆) (MK m c) n s e := by
  refine (congrFun (Hand.W4_arr m ρ c 3) (ix3 n s e)).trans ?_
  refine (arr1_3 (Hand.V3 m ρ) c n s e).trans ?_
  rw [v6_eq m ρ c, v7_eq m ρ c, v8_eq m ρ c]
  unfold Cert.Spec.kOut Cert.Spec.kScore MK scoreOf
  rfl

/-- On real arguments the kernel's row maximum is real. -/
theorem MK_real (h0 : ∀ i, Cert.Spec.IsReal (a₀ i)) (h1 : ∀ i, Cert.Spec.IsReal (a₁ i)) (h2 : ∀ i, Cert.Spec.IsReal (a₂ i))
    (h3 : ∀ i, Cert.Spec.IsReal (a₃ i)) (h4 : ∀ i, Cert.Spec.IsReal (a₄ i)) : ∀ n s, Cert.Spec.IsReal (MK m c n s) := by
  intro n s
  have hx : Cert.Spec.Real3 (Cert.Spec.arr3 a₀) := fun n s d => h0 (ix3 n s d)
  have hQ : Cert.Spec.Real3 (Cert.Spec.qOf a₀ a₁ a₂) :=
    Cert.Spec.proj_real hx (fun e d => h1 (ix2 e d)) (fun e => h2 (ix1 e))
  have hK : Cert.Spec.Real3 (Cert.Spec.qOf a₀ a₃ a₄) :=
    Cert.Spec.proj_real hx (fun e d => h3 (ix2 e d)) (fun e => h4 (ix1 e))
  have hsc : Cert.Spec.IsReal 𝕤 := ⟨1 / 32, Cert.Spec.sc_val⟩
  unfold MK rowMax
  rw [Cert.Spec.neg_inf_val]
  exact Cert.Spec.fold_max_real _ (fun j => Cert.Spec.kScore_real hsc hQ hK n s j)

end Assembly

end Cert.KernelIdeal.HandVal

end
-- ==== Proof.RefVal.lean ====
/-
  The reference's result, read index by index, is the specification's reference-side function of the argument arrays:
  three projections of x, the scores divided by the square root of 1024, the softmax along the keys with the row maximum
  subtracted, and the weighted sum of the value rows. On real arguments the row maximum it subtracts is a real number.
-/
import proofs.«147454_j31155692765425_2_alg».proof.Proof.Gen.ReferenceIdeal.Read
import proofs.«147454_j31155692765425_2_alg».proof.Proof.Spec
import proofs.«147454_j31155692765425_2_alg».proof.Proof.SpecIdx
import proofs.«147454_j31155692765425_2_alg».proof.Proof.SpecMath
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
  Idealize.ShloMosaic.ValueIdx

variable (x0 : (⟨S8x2048x1024, .f32⟩ : BufTy).Contents (Elt Ideal)) (x1 : (⟨S1024x1024, .f32⟩ : BufTy).Contents (Elt Ideal))
  (x2 : (⟨S1024, .f32⟩ : BufTy).Contents (Elt Ideal)) (x3 : (⟨S1024x1024, .f32⟩ : BufTy).Contents (Elt Ideal))
  (x4 : (⟨S1024, .f32⟩ : BufTy).Contents (Elt Ideal)) (x5 : (⟨S1024x1024, .f32⟩ : BufTy).Contents (Elt Ideal))
  (x6 : (⟨S1024, .f32⟩ : BufTy).Contents (Elt Ideal))

/-! ## The three projections at (n, s, e) -/

/-- Row (n, s) of x against row e of the first weight matrix, plus the bias at e. -/
theorem proj_q (n : Fin 8) (s : Fin 2048) (e : Fin 1024) :
    Read.val_main_v3 (F := Ideal) x0 x1 x2 (ix3 n s e) = Spec.qOf x0 x1 x2 n s e := by
  rw [Read.val_main_v3_apply, Read.val_main_v0_apply, Read.val_main_v2_apply, Read.val_main_v1_apply]
  refine congrArg₂ (· + ·) (Finset.sum_congr rfl fun k _ => congrArg₂ (· * ·) (congrArg x0 ?_) (congrArg x1 ?_)) (congrArg x2 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The same row against row e of the second weight matrix, plus its bias. -/
theorem proj_k (n : Fin 8) (s : Fin 2048) (e : Fin 1024) :
    Read.val_main_v7 (F := Ideal) x0 x3 x4 (ix3 n s e) = Spec.qOf x0 x3 x4 n s e := by
  rw [Read.val_main_v7_apply, Read.val_main_v4_apply, Read.val_main_v6_apply, Read.val_main_v5_apply]
  refine congrArg₂ (· + ·) (Finset.sum_congr rfl fun k _ => congrArg₂ (· * ·) (congrArg x0 ?_) (congrArg x3 ?_)) (congrArg x4 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-- The same row against row e of the third weight matrix, plus its bias. -/
theorem proj_v (n : Fin 8) (s : Fin 2048) (e : Fin 1024) :
    Read.val_main_v11 (F := Ideal) x0 x5 x6 (ix3 n s e) = Spec.qOf x0 x5 x6 n s e := by
  rw [Read.val_main_v11_apply, Read.val_main_v8_apply, Read.val_main_v10_apply, Read.val_main_v9_apply]
  refine congrArg₂ (· + ·) (Finset.sum_congr rfl fun k _ => congrArg₂ (· * ·) (congrArg x0 ?_) (congrArg x5 ?_)) (congrArg x6 ?_)
  · exact funext fun a => by match a with | ⟨0, _⟩ => rfl | ⟨1, _⟩ => rfl | ⟨2, _⟩ => rfl
  · exact funext fun a => by match a with | ⟨0, _⟩ => rfl | ⟨1, _⟩ => rfl
  · exact funext fun a => by match a with | ⟨0, _⟩ => rfl

/-! ## The scores, the row maximum, the exponentials and their sum -/

/-- The score of query row s against key row j: the rows' product sum divided by the square root of 1024. -/
theorem score_apply (n : Fin 8) (s j : Fin 2048) :
    Read.val_main_v15 (F := Ideal) x0 x1 x2 x3 x4 (ix3 n s j)
      = Spec.rScore (Ideal.sqrt (Ideal.ofBits .f32 0x44800000#32)) (Spec.qOf x0 x1 x2) (Spec.qOf x0 x3 x4) n s j := by
  rw [Read.val_main_v15_apply, Read.val_main_v12_apply, Read.val_main_v14_apply, Read.val_main_v13_apply,
    Read.val_main_cst_apply]
  refine congrArg (fun t => Ideal.div t (Ideal.sqrt (Ideal.ofBits .f32 0x44800000#32))) (Finset.sum_congr rfl fun k _ => ?_)
  have el : Read.lidx_main_v12 (ix3 n s j) k = ix3 n s k :=
    funext fun a => by match a with | ⟨0, _⟩ => rfl | ⟨1, _⟩ => rfl | ⟨2, _⟩ => rfl
  have er : Read.ridx_main_v12 (ix3 n s j) k = ix3 n j k :=
    funext fun a => by match a with | ⟨0, _⟩ => rfl | ⟨1, _⟩ => rfl | ⟨2, _⟩ => rfl
  rw [el, er, proj_q, proj_k]

/-- The row maximum the reference subtracts at (n, s): the larger of −∞ and the maximum of row (n, s)'s scores. -/
def MR : Fin 8 → Fin 2048 → EReal := fun n s => Read.val_main_v18 (F := Ideal) x0 x1 x2 x3 x4 (ix2 n s)

/-- The maximum broadcast along the keys is the row's maximum at every key. -/
theorem max_apply (n : Fin 8) (s j : Fin 2048) :
    Read.val_main_v20 (F := Ideal) x0 x1 x2 x3 x4 (ix3 n s j) = MR x0 x1 x2 x3 x4 n s := by
  rw [Read.val_main_v20_apply, Read.val_main_v19_apply]
  unfold MR
  refine congrArg (Read.val_main_v18 (F := Ideal) x0 x1 x2 x3 x4) ?_
  exact funext fun a => by match a with | ⟨0, _⟩ => rfl | ⟨1, _⟩ => rfl

/-- The exponential of the score less the row maximum. -/
theorem exp_apply (n : Fin 8) (s j : Fin 2048) :
    Read.val_main_v22 (F := Ideal) x0 x1 x2 x3 x4 (ix3 n s j)
      = Ideal.exp (Spec.rScore (Ideal.sqrt (Ideal.ofBits .f32 0x44800000#32)) (Spec.qOf x0 x1 x2) (Spec.qOf x0 x3 x4) n s j - MR x0 x1 x2 x3 x4 n s) := by
  rw [Read.val_main_v22_apply, Read.val_main_v21_apply, score_apply, max_apply]
  rfl

/-- The sum of row (n, s)'s exponentials. -/
theorem sum_apply (n : Fin 8) (s : Fin 2048) :
    Read.val_main_v23 (F := Ideal) x0 x1 x2 x3 x4 (ix2 n s)
      = ∑ j : Fin 2048, Ideal.exp (Spec.rScore (Ideal.sqrt (Ideal.ofBits .f32 0x44800000#32)) (Spec.qOf x0 x1 x2) (Spec.qOf x0 x3 x4) n s j - MR x0 x1 x2 x3 x4 n s) := by
  rw [Read.val_main_v23_apply, Read.val_main_cst_2_apply, Ideal.ofBits_def, Ideal.ofBits_zero_f32, zero_add]
  refine Finset.sum_congr rfl fun k _ => ?_
  have ei : Read.idx_main_v23 (ix2 n s) k = ix3 n s k :=
    funext fun a => by match a with | ⟨0, _⟩ => rfl | ⟨1, _⟩ => rfl | ⟨2, _⟩ => rfl
  rw [ei, exp_apply]

/-- The softmax weight of key row j: its exponential divided by the row's sum. -/
theorem weight_apply (n : Fin 8) (s j : Fin 2048) :
    Read.val_main_v26 (F := Ideal) x0 x1 x2 x3 x4 (ix3 n s j)
      = Ideal.div (Ideal.exp (Spec.rScore (Ideal.sqrt (Ideal.ofBits .f32 0x44800000#32)) (Spec.qOf x0 x1 x2) (Spec.qOf x0 x3 x4) n s j - MR x0 x1 x2 x3 x4 n s))
          (∑ j' : Fin 2048, Ideal.exp (Spec.rScore (Ideal.sqrt (Ideal.ofBits .f32 0x44800000#32)) (Spec.qOf x0 x1 x2) (Spec.qOf x0 x3 x4) n s j' - MR x0 x1 x2 x3 x4 n s)) := by
  rw [Read.val_main_v26_apply, Read.val_main_v25_apply, Read.val_main_v24_apply, exp_apply]
  have ei : Read.idx_main_v24 (Read.idx_main_v25 (ix3 n s j)) = ix2 n s :=
    funext fun a => by match a with | ⟨0, _⟩ => rfl | ⟨1, _⟩ => rfl
  rw [ei, sum_apply]
  rfl

/-! ## The result -/

/-- The reference's result at (n, s, e) is the specification's reference-side function of the seven arguments, with the
    reference's own row maximum. -/
theorem ref_apply (n : Fin 8) (s : Fin 2048) (e : Fin 1024) :
    Read.val_main_v27 (F := Ideal) x0 x1 x2 x3 x4 x5 x6 (ix3 n s e)
      = Spec.rOut (Ideal.sqrt (Ideal.ofBits .f32 0x44800000#32)) (Spec.qOf x0 x1 x2) (Spec.qOf x0 x3 x4) (Spec.qOf x0 x5 x6)
          (MR x0 x1 x2 x3 x4) n s e := by
  rw [Read.val_main_v27_apply]
  unfold Spec.rOut
  refine Finset.sum_congr rfl fun k _ => ?_
  have el : Read.lidx_main_v27 (ix3 n s e) k = ix3 n s k :=
    funext fun a => by match a with | ⟨0, _⟩ => rfl | ⟨1, _⟩ => rfl | ⟨2, _⟩ => rfl
  have er : Read.ridx_main_v27 (ix3 n s e) k = ix3 n k e :=
    funext fun a => by match a with | ⟨0, _⟩ => rfl | ⟨1, _⟩ => rfl | ⟨2, _⟩ => rfl
  rw [el, er, weight_apply, proj_v]

/-- The result buffer the reference's run ends with, at (n, s, e), over the seven argument buffers it started from. -/
theorem ref_result (m : (ℓ : Loc nD τ sig) → Buf (Elt Ideal) ℓ) (c : Dev nD) (n : Fin 8) (s : Fin 2048) (e : Fin 1024) :
    Cert.ReferenceIdeal.Value.res_main_v27 (F := Ideal) m c (ix3 n s e)
      = Spec.rOut (Ideal.sqrt (Ideal.ofBits .f32 0x44800000#32))
          (Spec.qOf (m ((c.tc : Thread nD τ).loc main_arg0)) (m ((c.tc : Thread nD τ).loc main_arg1)) (m ((c.tc : Thread nD τ).loc main_arg2)))
          (Spec.qOf (m ((c.tc : Thread nD τ).loc main_arg0)) (m ((c.tc : Thread nD τ).loc main_arg3)) (m ((c.tc : Thread nD τ).loc main_arg4)))
          (Spec.qOf (m ((c.tc : Thread nD τ).loc main_arg0)) (m ((c.tc : Thread nD τ).loc main_arg5)) (m ((c.tc : Thread nD τ).loc main_arg6)))
          (MR (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))) n s e := by
  rw [Read.val_main_v27_eq]
  exact ref_apply _ _ _ _ _ _ _ n s e

/-! ## The row maximum is a real number on real arguments -/

/-- Key k put back on the dropped axis of the reduced index (n, s) is (n, s, k). -/
theorem lift_key (h : S8x2048x2048.Reduces [2] S8x2048) (n : Fin 8) (s : Fin 2048) (k : Fin (S8x2048x2048.size 2)) :
    h.lift (ix2 n s) k = ix3 n s (⟨k.val, k.isLt⟩ : Fin 2048) := by
  funext c; apply Fin.ext
  fin_cases c <;> rfl

/-- The reference's row maximum at (n, s): the larger of −∞ and the maximum, folded from −∞, of the row's scores. -/
theorem MR_eq (n : Fin 8) (s : Fin 2048) :
    MR x0 x1 x2 x3 x4 n s = max (Ideal.ofBits .f32 0xFF800000#32)
      ((Finset.univ : Finset (Fin 2048)).fold max (Ideal.ofBits .f32 0xFF800000#32)
        fun j => Spec.rScore (Ideal.sqrt (Ideal.ofBits .f32 0x44800000#32)) (Spec.qOf x0 x1 x2) (Spec.qOf x0 x3 x4) n s j) := by
  have hred : S8x2048x2048.Reduces [2] S8x2048 := by decide
  unfold MR
  rw [Read.val_main_v18_apply, Read.val_main_v17_apply, Read.val_main_cst_1_apply]
  unfold Read.val_main_v16
  rw [Host.reduce_eq_fold_single FloatOps.maximumf _ _ reducesTo_S8x2048x2048_S8x2048_d2 hred h_S_]
  have hf : (Read.val_main_v15 (F := Ideal) x0 x1 x2 x3 x4 ∘ hred.lift (ix2 n s))
      = fun j : Fin 2048 => Spec.rScore (Ideal.sqrt (Ideal.ofBits .f32 0x44800000#32)) (Spec.qOf x0 x1 x2) (Spec.qOf x0 x3 x4) n s j :=
    funext fun k => by
      show Read.val_main_v15 (F := Ideal) x0 x1 x2 x3 x4 (hred.lift (ix2 n s) k) = _
      rw [lift_key, score_apply]
      rfl
  rw [hf]
  rfl

/-- When the five arguments it reads hold real numbers only, the reference's row maximum is a real number. -/
theorem MR_real (h0 : ∀ i, Spec.IsReal (x0 i)) (h1 : ∀ i, Spec.IsReal (x1 i)) (h2 : ∀ i, Spec.IsReal (x2 i))
    (h3 : ∀ i, Spec.IsReal (x3 i)) (h4 : ∀ i, Spec.IsReal (x4 i)) :
    ∀ n s, Spec.IsReal (MR x0 x1 x2 x3 x4 n s) := by
  intro n s
  have hq : Spec.Real3 (Spec.qOf x0 x1 x2) := by
    unfold Spec.qOf
    exact Spec.proj_real (fun n s d => h0 (ix3 n s d)) (fun e d => h1 (ix2 e d)) (fun e => h2 (ix1 e))
  have hk : Spec.Real3 (Spec.qOf x0 x3 x4) := by
    unfold Spec.qOf
    exact Spec.proj_real (fun n s d => h0 (ix3 n s d)) (fun e d => h3 (ix2 e d)) (fun e => h4 (ix1 e))
  rw [MR_eq, Spec.neg_inf_val]
  exact Spec.max_bot_real (Spec.fold_max_real _ (fun j => Spec.rScore_real Spec.dv_val hq hk n s j))

end Cert.ReferenceIdeal.RefValue

end
-- ==== Proof.Finite.lean ====
/-
  Finiteness of the seven argument arrays, read off the precondition.

  The precondition says that a conjunction of seven tests is true: for each argument array A, the test "every entry of
  |A| is below +∞". A conjunction of one-bit words is 1 only when each word is 1; an "and"-reduction over all axes that
  is 1 had a 1 at every entry; and at an entry x the test compares max x (−x) with the extended real that the pattern
  of +∞ denotes, which is ⊤. Of the three kinds of extended real, −∞ and +∞ both have |x| = ⊤, which is not below ⊤, so
  an entry that passes the test is a real number.
-/
import proofs.«147454_j31155692765425_2_alg».proof.Defs
import proofs.«147454_j31155692765425_2_alg».proof.Proof.Gen.Pre_finite_inputs
import proofs.«147454_j31155692765425_2_alg».proof.Proof.Spec
import Idealize.ShloMosaic.Lib.ReduceAll
import Idealize.ShloMosaic.Lib.ValueIdx

noncomputable section

namespace Cert.KernelIdeal.HandVal

open Idealize.ShloMosaic Idealize.SL.Sem
open Cert.Pre_finite_inputs (S_)

/-- The f32 pattern with clear sign, all-ones exponent and zero significand denotes +∞. -/
theorem pos_inf_val : Ideal.ofBits .f32 0x7F800000#32 = (⊤ : EReal) := by
  simp [Ideal.ofBits, Ideal.ieee]

/-- An extended real whose absolute value max x (−x) is below ⊤ is a real number. -/
theorem isReal_of_abs_lt_top (x : EReal) (h : Ideal.cmp .olt (max x (-x)) (⊤ : EReal) = 1#1) :
    Cert.Spec.IsReal x := by
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- A conjunction of two one-bit arrays that is 1 at an index has both conjuncts 1 there. -/
theorem andi_at {s : Shape} (x y : IVec s 1) (i : s.Idx) (h : andi x y i = 1#1) : x i = 1#1 ∧ y i = 1#1 :=
  IntOp.andi_eq_one.1 h

/-- One argument's test: if "all entries of |A| are below the +∞ pattern" is 1, every entry of A is real. -/
theorem all_real {S : Shape} {axes : List (Fin S.rank)} (A : FVec Ideal S .f32)
    (hb : S_.BroadcastsInDim S (![] : Fin 0 → Fin S.rank)) (hr : S.ReducesTo axes S_) (hu : 0 < S_.numel)
    (e : Host.reduce IntOp.andi
        (cmpf (F := Ideal) .olt (Host.absf (F := Ideal) A)
          (broadcastInDim S ![] hb (constant (F := Ideal) S_ .f32 0x7F800000#32)))
        (constantI S_ 1 1#1) hr hu ValueIdx.ix0 = 1#1) :
    ∀ i, Cert.Spec.IsReal (A i) := by
  intro i
  have hi := Host.reduce_andi_all _ _ hr hu ValueIdx.ix0 e i
  have hi' : Ideal.cmp .olt (max (A i) (-(A i))) (Ideal.ofBits .f32 0x7F800000#32) = 1#1 := hi
  rw [pos_inf_val] at hi'
  exact isReal_of_abs_lt_top (A i) hi'

theorem finite_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ i, Cert.Spec.IsReal (m ((c.tc : Thread Cert.KernelIdeal.nD Cert.KernelIdeal.τ).loc Cert.KernelIdeal.main_arg0) i))
    ∧ (∀ i, Cert.Spec.IsReal (m ((c.tc : Thread Cert.KernelIdeal.nD Cert.KernelIdeal.τ).loc Cert.KernelIdeal.main_arg1) i))
    ∧ (∀ i, Cert.Spec.IsReal (m ((c.tc : Thread Cert.KernelIdeal.nD Cert.KernelIdeal.τ).loc Cert.KernelIdeal.main_arg2) i))
    ∧ (∀ i, Cert.Spec.IsReal (m ((c.tc : Thread Cert.KernelIdeal.nD Cert.KernelIdeal.τ).loc Cert.KernelIdeal.main_arg3) i))
    ∧ (∀ i, Cert.Spec.IsReal (m ((c.tc : Thread Cert.KernelIdeal.nD Cert.KernelIdeal.τ).loc Cert.KernelIdeal.main_arg4) i))
    ∧ (∀ i, Cert.Spec.IsReal (m ((c.tc : Thread Cert.KernelIdeal.nD Cert.KernelIdeal.τ).loc Cert.KernelIdeal.main_arg5) i))
    ∧ (∀ i, Cert.Spec.IsReal (m ((c.tc : Thread Cert.KernelIdeal.nD Cert.KernelIdeal.τ).loc Cert.KernelIdeal.main_arg6) i)) := by
  have h0 := congrFun (h c) ValueIdx.ix0
  dsimp only [Cert.Pre_finite_inputs.fn, Cert.Pre_finite_inputs.fn_part1] at h0
  obtain ⟨h5, a6⟩ := andi_at _ _ _ h0
  obtain ⟨h4, a5⟩ := andi_at _ _ _ h5
  obtain ⟨h3, a4⟩ := andi_at _ _ _ h4
  obtain ⟨h2, a3⟩ := andi_at _ _ _ h3
  obtain ⟨h1, a2⟩ := andi_at _ _ _ h2
  obtain ⟨a0, a1⟩ := andi_at _ _ _ h1
  exact ⟨all_real _ _ _ _ a0, all_real _ _ _ _ a1, all_real _ _ _ _ a2, all_real _ _ _ _ a3,
    all_real _ _ _ _ a4, all_real _ _ _ _ a5, all_real _ _ _ _ a6⟩

end Cert.KernelIdeal.HandVal

end
-- ==== Proof.Claims.lean ====
/-
  The five claims. Both kernel programs run through their two pipelined calls from any memory, every unscoped buffer
  ending at the last boundary's contents; the reference runs as a list of host operations. At the extended reals, with
  every input a real number, the kernel's result is the softmax-weighted sum of value rows with the scale inside the
  scores' sums and the normaliser outside the weighted sum, the reference's has the scale and the normaliser on the other
  side of each sum; over the reals the two agree by distributivity, and the softmax does not depend on which real number
  is subtracted before the exponential.
-/
import proofs.«147454_j31155692765425_2_alg».proof.Defs
import proofs.«147454_j31155692765425_2_alg».proof.Proof.BRun
import proofs.«147454_j31155692765425_2_alg».proof.Proof.KRun
import proofs.«147454_j31155692765425_2_alg».proof.Proof.KAsm
import proofs.«147454_j31155692765425_2_alg».proof.Proof.RefVal
import proofs.«147454_j31155692765425_2_alg».proof.Proof.Finite
import proofs.«147454_j31155692765425_2_alg».proof.Proof.SpecMath

noncomputable section

namespace Cert.Proof.Claims

open Idealize.ShloMosaic Idealize.ShloMosaic.TcCoe Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand Cert.KernelIdeal.HandVal in
/-- The kernel's run with its result named: the last boundary's contents of the result buffer. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = W4 (F := Ideal) m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v9 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

open Cert.KernelIdeal.Hand Cert.KernelIdeal.HandVal Cert.ReferenceIdeal.RefValue in
/-- From memories agreeing on the arguments, both idealized programs run and end with one result: at every index the
    kernel's softmax-weighted sum (scale inside the scores, one division at the end) is the reference's (scores divided
    by 32, each weight normalised), every entry being a real number under the precondition. -/
theorem algebraic : Cert.algebraic_KernelIdeal_ReferenceIdeal := by
  intro m ρ m' ρ' hpre hagree
  refine ⟨fun c => Cert.KernelIdeal.Hand.W4 (F := Ideal) m ρ c (Proc.devRef .tc Cert.KernelIdeal.main_v9), kernel_run m ρ, ?_⟩
  refine (θ_run Cert.ReferenceIdeal.defs _ _).mono (fun r h c => ⟨(h c).1.trans ?_, (h c).2⟩)
    (Cert.ReferenceIdeal.Value.run (F := Ideal) m' ρ')
  funext i
  obtain ⟨n, s, e, rfl⟩ : ∃ (n : Fin 8) (s : Fin 2048) (e : Fin 1024), i = ix3 n s e := ⟨i 0, i 1, i 2, eq_ix3 i⟩
  obtain ⟨h0, h1, h2, h3, h4, h5, h6⟩ := Cert.KernelIdeal.HandVal.finite_of_pre m hpre c
  rw [ref_result m' c n s e, (hagree c).1, (hagree c).2.1, (hagree c).2.2.1, (hagree c).2.2.2.1, (hagree c).2.2.2.2.1,
    (hagree c).2.2.2.2.2.1, (hagree c).2.2.2.2.2.2]
  refine Eq.trans ?_ (kernel_result m ρ c n s e).symm
  have hq : Cert.Spec.Real3 (Cert.Spec.qOf _ _ _) :=
    Cert.Spec.proj_real (fun n s d => h0 (ix3 n s d)) (fun e d => h1 (ix2 e d)) (fun e => h2 (ix1 e))
  have hk : Cert.Spec.Real3 (Cert.Spec.qOf _ _ _) :=
    Cert.Spec.proj_real (fun n s d => h0 (ix3 n s d)) (fun e d => h3 (ix2 e d)) (fun e => h4 (ix1 e))
  have hv : Cert.Spec.Real3 (Cert.Spec.qOf _ _ _) :=
    Cert.Spec.proj_real (fun n s d => h0 (ix3 n s d)) (fun e d => h5 (ix2 e d)) (fun e => h6 (ix1 e))
  exact (congrFun (congrFun (congrFun (Cert.Spec.kOut_eq_rOut Cert.Spec.sc_val Cert.Spec.dv_val hq hk hv
    (MK_real m c h0 h1 h2 h3 h4) (MR_real _ _ _ _ _ h0 h1 h2 h3 h4)) n) s) e).symm

end Cert.Proof.Claims

end
-- ==== Proof.lean ====
/-
  Self-attention over x[8, 2048, 1024] with three linear projections: the pipelined kernel program (one call projecting
  x to q, k, v with the scale 1/32 folded into q, one call taking per batch and per block of 512 query rows the row
  maximum, the exponentials, their sum and the weighted sum of the value rows divided by that sum) against the plain
  reference (three products with the weights plus biases, scores divided by the square root of 1024, the softmax
  along the keys, the product with v). The three frames: each program runs to the end from any memory, faults nowhere
  and leaves its seven arguments as launched. The idealization rewrote nothing. Over the extended reals with every input
  a real number the two results agree index by index: 1/32 times a finite sum is the sum of the scaled terms, the
  square root of 1024 is 32, the sum of exponentials is a positive real, and the quotient of the weighted sum by the sum
  of the weights does not depend on which real number is subtracted from the scores before the exponential.
-/
import proofs.«147454_j31155692765425_2_alg».proof.Defs
import proofs.«147454_j31155692765425_2_alg».proof.Proof.Gen.Kernel
import proofs.«147454_j31155692765425_2_alg».proof.Proof.Gen.KernelIdeal
import proofs.«147454_j31155692765425_2_alg».proof.Proof.Gen.ReferenceIdeal
import proofs.«147454_j31155692765425_2_alg».proof.Proof.Gen.Pre_finite_inputs
import proofs.«147454_j31155692765425_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
